-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1024 : Shape := ⟨2, ![8192, 1024]⟩
abbrev S256x256 : Shape := ⟨2, ![256, 256]⟩
abbrev S256 : Shape := ⟨1, ![256]⟩
abbrev S_ : Shape := ⟨0, ![]⟩
abbrev S1024 : Shape := ⟨1, ![1024]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x1024_S1024_d0 : S8192x1024.ReducesTo [0] S1024
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : FVec F S8192x1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S1024 .f32 := (fun x v => Host.reduceAdd x v reducesTo_S8192x1024_S1024_d0 h_S_) main_arg1 main_cst_6
  let main_cst_7 : FVec F S_ .f32 := constant S_ .f32 0x00000000#32
  let main_v20 : FVec F S1024 .f32 := broadcastInDim S1024 ![] bcast_S_S1024 main_cst_7
  let main_v21 : IVec S1024 1 := cmpf .une main_v19 main_v20
  let main_c_8 : IVec S_ 1 := constantI S_ 1 1#1
  let main_v22 : IVec S_ 1 := (fun x v => Host.reduce IntOp.andi x v reducesTo_S1024_S_d0 h_S_) main_v21 main_c_8
  let main_v23 : IVec S_ 1 := andi main_v18 main_v22
  main_v23

def fn {F : FTy → Type} [FloatOps F] (main_arg0 : FVec F S8192x256 .f32) (main_arg1 : FVec F S8192x1024 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x1024 : Shape := ⟨2, ![8192, 1024]⟩
abbrev S256x256 : Shape := ⟨2, ![256, 256]⟩
abbrev S256 : Shape := ⟨1, ![256]⟩
abbrev S8192x1 : Shape := ⟨2, ![8192, 1]⟩
abbrev S2x1024x256 : Shape := ⟨3, ![2, 1024, 256]⟩
abbrev S2x1024x1 : Shape := ⟨3, ![2, 1024, 1]⟩
abbrev S2048x1024 : Shape := ⟨2, ![2048, 1024]⟩
abbrev S2048x256 : Shape := ⟨2, ![2048, 256]⟩
abbrev S2048x1 : Shape := ⟨2, ![2048, 1]⟩
abbrev S1x1024x256 : Shape := ⟨3, ![1, 1024, 256]⟩
abbrev S1x1024x1 : Shape := ⟨3, ![1, 1024, 1]⟩
abbrev S2048 : Shape := ⟨1, ![2048]⟩
abbrev S1024x256 : Shape := ⟨2, ![1024, 256]⟩
abbrev S1024x1 : Shape := ⟨2, ![1024, 1]⟩
abbrev S1x256 : Shape := ⟨2, ![1, 256]⟩

abbrev nBuf : Space → Nat
  | .hbm => 22
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192x1024, .bf16⟩
  | .hbm, ⟨6, _⟩ => ⟨S2x1024x256, .f32⟩
  | .hbm, ⟨7, _⟩ => ⟨S2x1024x1, .f32⟩
  | .hbm, ⟨8, _⟩ => ⟨S1x1024x1, .f32⟩
  | .hbm, ⟨9, _⟩ => ⟨S1024x1, .f32⟩
  | .hbm, ⟨10, _⟩ => ⟨S1x1024x1, .f32⟩
  | .hbm, ⟨11, _⟩ => ⟨S1024x1, .f32⟩
  | .hbm, ⟨12, _⟩ => ⟨S1024x1, .f32⟩
  | .hbm, ⟨13, _⟩ => ⟨S1x1024x256, .f32⟩
  | .hbm, ⟨14, _⟩ => ⟨S1024x256, .f32⟩
  | .hbm, ⟨15, _⟩ => ⟨S1x1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S1x256, .f32⟩
  | .hbm, ⟨21, _⟩ => ⟨S8192x256, .f32⟩
  | .local _ .vmem, ⟨0, _⟩ => ⟨S2048x1024, .f32⟩
  | .local _ .vmem, ⟨1, _⟩ => ⟨S2048x1024, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S2048x1024, .bf16⟩
  | .local _ .vmem, ⟨7, _⟩ => ⟨S2048x1024, .bf16⟩
  | .local _ .vmem, ⟨8, _⟩ => ⟨S1x1024x256, .f32⟩
  | .local _ .vmem, ⟨9, _⟩ => ⟨S1x1024x256, .f32⟩
  | .local _ .vmem, ⟨10, _⟩ => ⟨S1x1024x1, .f32⟩
  | .local _ .vmem, ⟨11, _⟩ => ⟨S1x1024x1, .f32⟩
  | .local _ .vmem, ⟨12, _⟩ => ⟨S2048x1024, .bf16⟩
  | .local _ .vmem, ⟨13, _⟩ => ⟨S2048x1024, .bf16⟩
  | .local _ .vmem, ⟨14, _⟩ => ⟨S1024x256, .f32⟩
  | .local _ .vmem, ⟨15, _⟩ => ⟨S2048x1, .f32⟩
  | .local _ .vmem, ⟨16, _⟩ => ⟨S2048x1, .f32⟩
  | .local _ .vmem, ⟨17, _⟩ => ⟨S256x256, .f32⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  inb_S2048x256_S2048x256_0_0 : ∀ a, (![0, 0] : Fin 2 → Nat) a + S2048x256.size a ≤ S2048x256.size a
  h_S2048x256 : 0 < S2048x256.numel
  broadcasts_S2048x1_S2048x256 : S2048x1.Broadcasts S2048x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  slices_S2x1024x256_S1x1024x256_0_0_0 : S2x1024x256.Slices ![0, 0, 0] S1x1024x256
  slices_S2x1024x256_S1x1024x256_1_0_0 : S2x1024x256.Slices ![1, 0, 0] S1x1024x256
  bcast_S1024x1_S1024x256_0_1 : S1024x1.BroadcastsInDim S1024x256 (![0, 1] : Fin 2 → Fin S1024x256.rank)
  shapeCasts_S256_S1x256 : S256.ShapeCasts S1x256
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S2048x1_S2048x1 : S2048x1.ShapeCasts S2048x1
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x1024_S2048x256_S1024x256_0_0_1_1_n_n_wf : DotDims.WF S2048x1024 S2048x256 S1024x256 [0] [0] [1] [1] [] []
  dot_S2048x1024_S2048x1_S1024x1_0_0_1_1_n_n_wf : DotDims.WF S2048x1024 S2048x1 S1024x1 [0] [0] [1] [1] [] []
  dot_S2048x1024_S1024x256_S2048x256_1_0_0_1_n_n_wf : DotDims.WF S2048x1024 S1024x256 S2048x256 [1] [0] [0] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x1024.size a
  hwx0_3 : ∀ i : grid0.Coords, EltTy.bits .bf16 = 32 ∨ (Rect.block (s := S8192x1024) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S2x1024x256.size a
  hwx0_4 : ∀ i : grid0.Coords, EltTy.bits .f32 = 32 ∨ (Rect.block (s := S2x1024x256) S1x1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .bf16 = 32 ∨ (Rect.block (s := S8192x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S8192x256.size a
  hwx1_5 : ∀ i : grid1.Coords, EltTy.bits .f32 = 32 ∨ (Rect.block (s := S8192x256) S2048x256.size (cc1_transform_5 i) (hinb1_5 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S2048x1024_S2048x1_S1024x1_0_0_1_1_n_n : DotDims S2048x1024 S2048x1 S1024x1 where
  lhsContracting := [0]
  rhsContracting := [0]
  lhsNonContracting := [1]
  rhsNonContracting := [1]
  lhsBatch := []
  rhsBatch := []
  wf := dot_S2048x1024_S2048x1_S1024x1_0_0_1_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2048x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x1024 : Shape := ⟨2, ![8192, 1024]⟩
abbrev S256x256 : Shape := ⟨2, ![256, 256]⟩
abbrev S256 : Shape := ⟨1, ![256]⟩
abbrev S_ : Shape := ⟨0, ![]⟩
abbrev S8192 : Shape := ⟨1, ![8192]⟩
abbrev S1024 : Shape := ⟨1, ![1024]⟩
abbrev S8192x1 : Shape := ⟨2, ![8192, 1]⟩
abbrev S1024x8192 : Shape := ⟨2, ![1024, 8192]⟩
abbrev S1024x256 : Shape := ⟨2, ![1024, 256]⟩
abbrev S1024x1 : Shape := ⟨2, ![1024, 1]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S1024, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S1024x8192, .f32⟩
  | .hbm, ⟨19, _⟩ => ⟨S1024x256, .f32⟩
  | .hbm, ⟨20, _⟩ => ⟨S1024x1, .f32⟩
  | .hbm, ⟨21, _⟩ => ⟨S1024x256, .f32⟩
  | .hbm, ⟨22, _⟩ => ⟨S1024x256, .f32⟩
  | .hbm, ⟨23, _⟩ => ⟨S8192x256, .f32⟩
  | .hbm, ⟨24, _⟩ => ⟨S8192x1, .f32⟩
  | .hbm, ⟨25, _⟩ => ⟨S8192x256, .f32⟩
  | .hbm, ⟨26, _⟩ => ⟨S8192x256, .f32⟩
  | .hbm, ⟨27, _⟩ => ⟨S256x256, .f32⟩
  | .hbm, ⟨28, _⟩ => ⟨S8192x256, .f32⟩
  | .hbm, ⟨29, _⟩ => ⟨S1x256, .f32⟩
  | .hbm, ⟨30, _⟩ => ⟨S8192x256, .f32⟩
  | .hbm, ⟨31, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  reducesTo_S8192x1024_S1024_d0 : S8192x1024.ReducesTo [0] S1024
  bcast_S_S8192 : S_.BroadcastsInDim S8192 (![] : Fin 0 → Fin S8192.rank)
  bcast_S_S1024 : S_.BroadcastsInDim S1024 (![] : Fin 0 → Fin S1024.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x1024_S1024x8192_1_0 : S8192x1024.Transposes [1, 0] S1024x8192
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S1024x8192_S8192x256_S1024x256_1_0_0_1_n_n_wf : DotDims.WF S1024x8192 S8192x256 S1024x256 [1] [0] [0] [1] [] []
  dot_S8192x1024_S1024x256_S8192x256_1_0_0_1_n_n_wf : DotDims.WF S8192x1024 S1024x256 S8192x256 [1] [0] [0] [1] [] []
  dot_S8192x256_S256x256_S8192x256_1_0_0_1_n_n_wf : DotDims.WF S8192x256 S256x256 S8192x256 [1] [0] [0] [1] [] []

variable [Facts₀]

def dot_S1024x8192_S8192x256_S1024x256_1_0_0_1_n_n : DotDims S1024x8192 S8192x256 S1024x256 where
  lhsContracting := [1]
  rhsContracting := [0]
  lhsNonContracting := [0]
  rhsNonContracting := [1]
  lhsBatch := []
  rhsBatch := []
  wf := dot_S1024x8192_S8192x256_S1024x256_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Spec.lean ====
/-
  The hypergraph layer as a function of its four arrays, on the extended reals, written twice.

  With H the N × E incidence array, X the features, W and b the dense layer:
    dv i = Σ_j H i j            (row sums: node degrees)         de j = Σ_i H i j   (column sums: edge degrees)
    s i  = 1 / √(dv i)
    M j f = Σ_i H i j · (X i f · s i)                            (Hᵀ applied to the scaled features)
    out i o = Σ_f ((Σ_j H i j · M' j f) · s i) · W o f + b o
  where the scaled edge features M' are, in the one reading, M j f · (1 / de j), and in the other M j f / de j, with
  every sum over the 8192 rows taken as four blocks of 2048 rows, two blocks per half, each half accumulated from zero.
  The two readings agree wherever no column sum is zero: off zero a quotient is the product with the reciprocal, and a
  sum of extended reals may be regrouped freely.
-/
import Idealize.ShloMosaic.PureOps.Ideal
import Idealize.ShloMosaic.PureOps.Ideal.Laws
import Mathlib.Algebra.BigOperators.Fin
import Mathlib.Logic.Equiv.Fin.Basic

noncomputable section

namespace Cert.Hgnn

open Idealize.ShloMosaic

/-- The word of `1.0`, as an extended real. -/
abbrev one : EReal := Ideal.ofBits .f32 0x3F800000#32
/-- The word of `+0.0`, as an extended real. -/
abbrev zero : EReal := Ideal.ofBits .f32 0x00000000#32

/-- `1.0` denotes 1. -/
theorem one_eq : one = 1 := by
  show Ideal.ofBits .f32 0x3F800000#32 = 1
  simp [Ideal.ofBits, Ideal.ieee, -EReal.coe_mul]; norm_num

/-- `+0.0` denotes 0. -/
theorem zero_eq : zero = 0 := Ideal.ofBits_zero_f32

/-- Row `r` of block `t`: the 8192 rows are four blocks of 2048. -/
def row (t : Fin 4) (r : Fin 2048) : Fin 8192 := ⟨2048 * t.val + r.val, by have := t.isLt; have := r.isLt; omega⟩

/-- Block `k` (of two) of half `c` (of two). -/
def blk (c : Fin 2) (k : Fin 2) : Fin 4 := ⟨2 * c.val + k.val, by have := c.isLt; have := k.isLt; omega⟩

/-- The sum of `g` over the rows of block `t`. -/
def blkSum (g : Fin 8192 → EReal) (t : Fin 4) : EReal := ∑ r : Fin 2048, g (row t r)

/-- A half's accumulation: from zero, its first block's sum, then its second's. -/
def halfSum (g : Fin 8192 → EReal) (c : Fin 2) : EReal := (zero + blkSum g (blk c 0)) + blkSum g (blk c 1)

/-- A sum over all rows is the two halves' accumulations added. -/
theorem sum_halves (g : Fin 8192 → EReal) : halfSum g 0 + halfSum g 1 = ∑ i : Fin 8192, g i := by
  have e : ∑ i : Fin 8192, g i = ∑ p : Fin 4 × Fin 2048, g (row p.1 p.2) := by
    rw [← Equiv.sum_comp (finProdFinEquiv (m := 4) (n := 2048)) g]
    refine Finset.sum_congr rfl fun p _ => congrArg g (Fin.ext ?_)
    show p.2.val + 2048 * p.1.val = 2048 * p.1.val + p.2.val
    omega
  rw [e, Fintype.sum_prod_type, Fin.sum_univ_four]
  unfold halfSum blkSum
  rw [zero_eq, zero_add, zero_add]
  show (∑ r, g (row 0 r) + ∑ r, g (row 1 r)) + (∑ r, g (row 2 r) + ∑ r, g (row 3 r)) = _
  rw [add_assoc, add_assoc, add_assoc]

variable (H : Fin 8192 → Fin 1024 → EReal) (X : Fin 8192 → Fin 256 → EReal)
  (W : Fin 256 → Fin 256 → EReal) (b : Fin 256 → EReal)

/-- The output in terms of the scaled edge features `M` and the node scale `s`. -/
def outOf (M : Fin 1024 → Fin 256 → EReal) (s : Fin 8192 → EReal) (i : Fin 8192) (o : Fin 256) : EReal :=
  (∑ f : Fin 256, ((∑ j : Fin 1024, H i j * M j f) * s i) * W o f) + b o

/-! ## The first reading: whole sums from a zero, the edge features scaled by a reciprocal -/

def rDv (i : Fin 8192) : EReal := zero + ∑ k : Fin 1024, H i k
def rScale (i : Fin 8192) : EReal := Ideal.div one (Ideal.sqrt (rDv H i))
def rDe (j : Fin 1024) : EReal := zero + ∑ i : Fin 8192, H i j
def rM (j : Fin 1024) (f : Fin 256) : EReal := (∑ i : Fin 8192, H i j * (X i f * rScale H i)) * Ideal.div one (rDe H j)
def rOut (i : Fin 8192) (o : Fin 256) : EReal := outOf H W b (rM H X) (rScale H) i o

/-! ## The second reading: sums by halves of two blocks, the edge features divided -/

def kDv (i : Fin 8192) : EReal := ∑ k : Fin 1024, H i k
def kScale (i : Fin 8192) : EReal := Ideal.div one (Ideal.sqrt (kDv H i))
/-- A half's partial product Hᵀ · (scaled features). -/
def kMp (c : Fin 2) (j : Fin 1024) (f : Fin 256) : EReal := halfSum (fun i => H i j * (X i f * kScale H i)) c
/-- A half's partial column sum, each entry taken times one. -/
def kDp (c : Fin 2) (j : Fin 1024) : EReal := halfSum (fun i => H i j * one) c
def kM (j : Fin 1024) (f : Fin 256) : EReal := Ideal.div (kMp H X 0 j f + kMp H X 1 j f) (kDp H 0 j + kDp H 1 j)
def kOut (i : Fin 8192) (o : Fin 256) : EReal := outOf H W b (kM H X) (kScale H) i o

/-! ## They agree where no column sum is zero -/

theorem kDv_eq : kDv H = rDv H := funext fun i => by unfold kDv rDv; rw [zero_eq, zero_add]

theorem kScale_eq : kScale H = rScale H := funext fun i => by unfold kScale rScale; rw [kDv_eq]

theorem kDp_sum (j : Fin 1024) : kDp H 0 j + kDp H 1 j = ∑ i : Fin 8192, H i j := by
  unfold kDp
  rw [sum_halves]
  exact Finset.sum_congr rfl fun i _ => by rw [one_eq, mul_one]

/-- Off zero a quotient is the product with the reciprocal. -/
theorem div_eq_mul_div_one (a d : EReal) (hd : d ≠ 0) : Ideal.div a d = a * Ideal.div one d := by
  unfold Ideal.div
  rw [if_neg hd, if_neg hd, one_eq, one_mul]

theorem kM_eq (hde : ∀ j, rDe H j ≠ 0) : kM H X = rM H X := funext fun j => funext fun f => by
  have hd : rDe H j = ∑ i : Fin 8192, H i j := by unfold rDe; rw [zero_eq, zero_add]
  unfold kM rM kMp
  rw [sum_halves, kDp_sum, kScale_eq, hd]
  exact div_eq_mul_div_one _ _ (hd ▸ hde j)

/-- The two readings of the layer agree at every entry, where no column sum of the incidence array is zero. -/
theorem kOut_eq_rOut (hde : ∀ j, rDe H j ≠ 0) : kOut H X W b = rOut H X W b := by
  funext i o
  unfold kOut rOut
  rw [kM_eq H X hde, kScale_eq]

end Cert.Hgnn

end
-- ==== Proof.EdgePieces.lean ====
/-
  What the edge pass leaves in each output's staging buffer after one grid point, as a value of the blocks it loaded.
  On the first point of a core's sweep the two accumulators are zeroed and the point's contribution is added to that
  zero; on a later point the contribution is added to what the point before left. The row-sum column and the
  narrowed copy of the incidence block are rewritten whole on every point.
-/
import proofs.«159337_j13735305413432_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.EdgePieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first point of a sweep: the accumulators start from the zero just stored -/

/-- The row sums of the incidence block, kept as a column. -/
theorem out_A_2 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : cond0_0 i)
    (x0 : Vec F S2048x1024 .f32) (x1 : Vec F S2048x256 .f32) :
    out0_A_2 c i a2 h2 a3 h3 a4 h4 a5 h5 a6 h6 a7 h7 hc x0 x1 = k0_pay2 x0 := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_unit_zero hz2]
  simp only [View.readAt_eq_ld, h2.read_unread, h3.read_unread, View.ld_unit_zero (S := S2048x1024) hz2, View.ld_unit_zero (S := S2048x256) hz2]

/-- The incidence block narrowed to the short format. -/
theorem out_A_3 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : cond0_0 i)
    (x0 : Vec F S2048x1024 .f32) (x1 : Vec F S2048x256 .f32) :
    out0_A_3 c i a2 h2 a3 h3 a4 h4 a5 h5 a6 h6 a7 h7 hc x0 x1 = k0_pay3 x0 := by
  unfold out0_A_3
  rw [View.read_writes_eq_canon _ _ _ (cover0_A_3 c i a2 h2 a3 h3 a4 h4 a5 h5 a6 h6 a7 h7 hc x0 x1)]
  unfold kernelRun0_A
  dsimp only
  sl_unfold_words
  rw [View.canon_unit_zero hz2]
  simp only [View.readAt_eq_ld, h2.read_unread, h3.read_unread, View.ld_unit_zero (S := S2048x1024) hz2, View.ld_unit_zero (S := S2048x256) hz2]

/-- The feature accumulator: the zero block plus this point's product of the transposed incidence block with the scaled features. -/
theorem out_A_4 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : cond0_0 i)
    (x0 : Vec F S2048x1024 .f32) (x1 : Vec F S2048x256 .f32) :
    out0_A_4 c i a2 h2 a3 h3 a4 h4 a5 h5 a6 h6 a7 h7 hc x0 x1 = k0_pay6 x0 x1 (k0_pay4 (F := F)) := by
  unfold out0_A_4
  rw [View.read_writes_eq_canon _ _ _ (cover0_A_4 c i a2 h2 a3 h3 a4 h4 a5 h5 a6 h6 a7 h7 hc x0 x1)]
  unfold kernelRun0_A
  dsimp only
  sl_unfold_words
  rw [View.canon_cons_unit_zero (S := S1x1024x256) hz3, View.readCov_unit_zero (S := S1x1024x256) _ hz3]
  simp only [View.readAt_eq_ld, h2.read_unread, h3.read_unread, View.ld_unit_zero (S := S2048x1024) hz2, View.ld_unit_zero (S := S2048x256) hz2]

/-- The edge-degree accumulator: the zero column plus this point's column sums of the incidence block. -/
theorem out_A_5 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : cond0_0 i)
    (x0 : Vec F S2048x1024 .f32) (x1 : Vec F S2048x256 .f32) :
    out0_A_5 c i a2 h2 a3 h3 a4 h4 a5 h5 a6 h6 a7 h7 hc x0 x1 = k0_pay1 (k0_pay7 x0 (k0_pay5 (F := F))) := by
  unfold out0_A_5
  rw [View.read_writes_eq_canon _ _ _ (cover0_A_5 c i a2 h2 a3 h3 a4 h4 a5 h5 a6 h6 a7 h7 hc x0 x1)]
  unfold kernelRun0_A
  dsimp only
  sl_unfold_words
  rw [View.canon_cons_unit_zero (S := S1x1024x1) hz3, View.readCov_unit_zero (S := S1x1024x1) _ hz3]
  simp only [View.readAt_eq_ld, h2.read_unread, h3.read_unread, View.ld_unit_zero (S := S2048x1024) hz2, View.ld_unit_zero (S := S2048x256) hz2]

/-! ## A later point of a sweep: the accumulators continue from what the point before left -/

theorem out_B_2 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : ¬cond0_0 i)
    (x0 : Vec F S2048x1024 .f32) (x1 : Vec F S2048x256 .f32) (xo4 : Vec F S1x1024x256 .f32) (xo5 : Vec F S1x1024x1 .f32) :
    out0_B_2 c i a2 h2 a3 h3 a4 h4 a5 h5 a6 h6 a7 h7 hc x0 x1 xo4 xo5 = k0_pay2 x0 := by
  unfold out0_B_2
  rw [View.read_writes_eq_canon _ _ _ (cover0_B_2 c i a2 h2 a3 h3 a4 h4 a5 h5 a6 h6 a7 h7 hc x0 x1 xo4 xo5)]
  unfold kernelRun0_B
  dsimp only
  sl_unfold_words
  rw [View.canon_unit_zero hz2]
  simp only [View.readAt_eq_ld, h2.read_unread, h3.read_unread, View.ld_unit_zero (S := S2048x1024) hz2, View.ld_unit_zero (S := S2048x256) hz2]

theorem out_B_3 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : ¬cond0_0 i)
    (x0 : Vec F S2048x1024 .f32) (x1 : Vec F S2048x256 .f32) (xo4 : Vec F S1x1024x256 .f32) (xo5 : Vec F S1x1024x1 .f32) :
    out0_B_3 c i a2 h2 a3 h3 a4 h4 a5 h5 a6 h6 a7 h7 hc x0 x1 xo4 xo5 = k0_pay3 x0 := by
  unfold out0_B_3
  rw [View.read_writes_eq_canon _ _ _ (cover0_B_3 c i a2 h2 a3 h3 a4 h4 a5 h5 a6 h6 a7 h7 hc x0 x1 xo4 xo5)]
  unfold kernelRun0_B
  dsimp only
  sl_unfold_words
  rw [View.canon_unit_zero hz2]
  simp only [View.readAt_eq_ld, h2.read_unread, h3.read_unread, View.ld_unit_zero (S := S2048x1024) hz2, View.ld_unit_zero (S := S2048x256) hz2]

theorem out_B_4 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : ¬cond0_0 i)
    (x0 : Vec F S2048x1024 .f32) (x1 : Vec F S2048x256 .f32) (xo4 : Vec F S1x1024x256 .f32) (xo5 : Vec F S1x1024x1 .f32) :
    out0_B_4 c i a2 h2 a3 h3 a4 h4 a5 h5 a6 h6 a7 h7 hc x0 x1 xo4 xo5 = k0_pay6 x0 x1 xo4 := by
  unfold out0_B_4
  rw [View.read_writes_eq_canon _ _ _ (cover0_B_4 c i a2 h2 a3 h3 a4 h4 a5 h5 a6 h6 a7 h7 hc x0 x1 xo4 xo5)]
  unfold kernelRun0_B
  dsimp only
  sl_unfold_words
  rw [View.canon_unit_zero hz3]
  simp only [View.readAt_eq_ld, h2.read_unread, h3.read_unread, h6.read_unread, View.ld_unit_zero (S := S2048x1024) hz2, View.ld_unit_zero (S := S2048x256) hz2, View.ld_unit_zero (S := S1x1024x256) hz3]

theorem out_B_5 (c : Dev nD) (i : grid0.Coords) (a2 : Memref sig .tc .vmem S2048x1024 .f32) (h2 : a2.IsWhole) (a3 : Memref sig .tc .vmem S2048x256 .f32) (h3 : a3.IsWhole) (a4 : Memref sig .tc .vmem S2048x1 .f32) (h4 : a4.IsWhole) (a5 : Memref sig .tc .vmem S2048x1024 .bf16) (h5 : a5.IsWhole) (a6 : Memref sig .tc .vmem S1x1024x256 .f32) (h6 : a6.IsWhole) (a7 : Memref sig .tc .vmem S1x1024x1 .f32) (h7 : a7.IsWhole) (hc : ¬cond0_0 i)
    (x0 : Vec F S2048x1024 .f32) (x1 : Vec F S2048x256 .f32) (xo4 : Vec F S1x1024x256 .f32) (xo5 : Vec F S1x1024x1 .f32) :
    out0_B_5 c i a2 h2 a3 h3 a4 h4 a5 h5 a6 h6 a7 h7 hc x0 x1 xo4 xo5 = k0_pay1 (k0_pay7 x0 xo5) := by
  unfold out0_B_5
  rw [View.read_writes_eq_canon _ _ _ (cover0_B_5 c i a2 h2 a3 h3 a4 h4 a5 h5 a6 h6 a7 h7 hc x0 x1 xo4 xo5)]
  unfold kernelRun0_B
  dsimp only
  sl_unfold_words
  rw [View.canon_unit_zero hz3]
  simp only [View.readAt_eq_ld, h2.read_unread, h3.read_unread, h7.read_unread, View.ld_unit_zero (S := S2048x1024) hz2, View.ld_unit_zero (S := S2048x256) hz2, View.ld_unit_zero (S := S1x1024x1) hz3]

end Cert.KernelIdeal.EdgePieces

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  The vector-unit operations a row-wise kernel body is made of, read at an index, at any sizes: the sum along the
  rows of a matrix, the grand total of a one-row matrix taken out as a scalar, and the row of a matrix that a
  unit-stride rectangle of one row loads.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws
import proofs.«159337_j13735305413432_2_alg».proof.Proof.LibColumn

noncomputable section

namespace Cert.LibRowOps

open Idealize.ShloMosaic Idealize.ShloMosaic.ValueIdx

/-- The sum along axis 1 of an `[a, b]` matrix from a zero accumulator, read at row `p`: the sum of the row's entries. -/
theorem rowSums_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  show ∑ k : Fin b, v (h.lift (ix1 p) k) = _
  refine Finset.sum_congr rfl fun k _ => congrArg v ?_
  funext d
  match d with
  | ⟨0, _⟩ => rfl
  | ⟨1, _⟩ => rfl

/-- The same sum kept as a column `[a, 1]`, read at `(p, u)`. -/
theorem rowSums_column_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩ v 0x00000000#32 h hφ hacc) hc (ix2 p u)
      = ∑ k : Fin b, v (ix2 p k) :=
  (Cert.LibColumn.shapeCast_a_a1_apply _ hc p u).trans (rowSums_apply v h hφ hacc p)

/-- The grand total of a one-row matrix `[1, b]`: summed along its row into `[1]`, cast to `[1, 1]` and taken out
    as a scalar, it is the sum of the row's entries. -/
theorem rowTotal_extract {b : ℕ} (u : FVec Ideal ⟨2, ![1, b]⟩ .f32)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ u 0x00000000#32 h hφ hacc) hc) hp
      = ∑ k : Fin b, u (ix2 (0 : Fin 1) k) := by
  have e : (fun a => ⟨(![0, 0] : Fin 2 → Nat) a, hp a⟩ : (⟨2, ![1, 1]⟩ : Shape).Idx) = ix2 (0 : Fin 1) (0 : Fin 1) :=
    funext fun d => match d with | ⟨0, _⟩ => rfl | ⟨1, _⟩ => rfl
  unfold extractAt
  rw [e]
  exact rowSums_column_apply u h hφ hacc hc 0 0

/-- What the unit-stride rectangle at `(l, 0)` of extent `[1, b]` loads of an `[n, b]` matrix: its row `l`. -/
theorem ld_row_eq {Val : EltTy → Type} {e : EltTy} {n b : ℕ} (x : (⟨2, ![n, b]⟩ : Shape).Idx → Val e) (l : ℕ)
    (inb : ∀ a, (![l, 0] : Fin 2 → Nat) a + (![1, b] : Fin 2 → Nat) a ≤ (⟨2, ![n, b]⟩ : Shape).size a) :
    View.ld x (Rect.unit (s := ⟨2, ![n, b]⟩) ![l, 0] ![1, b] inb)
      = fun i => x (ix2 (⟨l, Nat.lt_of_succ_le (inb 0)⟩ : Fin n) (⟨(i 1).val, (i 1).isLt⟩ : Fin b)) := by
  funext i
  show x ((Rect.unit (s := ⟨2, ![n, b]⟩) ![l, 0] ![1, b] inb).idx i) = _
  refine congrArg x (funext fun d => ?_)
  have h0 : (i 0).val < 1 := (i 0).isLt
  match d with
  | ⟨0, _⟩ => exact Fin.ext (by show l + 1 * (i 0).val = l; omega)
  | ⟨1, _⟩ => exact Fin.ext (by show 0 + 1 * (i 1).val = (i 1).val; omega)

/-- A vector `w` laid along every row of an `[a, b]` matrix `x`, multiplied into it entry by entry and summed along
    the rows, kept as a column: entry `(p, u)` is  Σ_k w k · x (p, k). -/
theorem weightedRowSums_column_apply {a b : ℕ} (w : FVec Ideal ⟨1, ![b]⟩ .f32) (x : FVec Ideal ⟨2, ![a, b]⟩ .f32)
    (h1 : (⟨1, ![b]⟩ : Shape).ShapeCasts ⟨2, ![1, b]⟩) (h2 : (⟨2, ![1, b]⟩ : Shape).Broadcasts ⟨2, ![a, b]⟩)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩
        (mulf (broadcastTo ⟨2, ![a, b]⟩ (shapeCast ⟨2, ![1, b]⟩ w h1) h2) x) 0x00000000#32 h hφ hacc) hc (ix2 p u)
      = ∑ k : Fin b, w (ix1 k) * x (ix2 p k) := by
  refine (rowSums_column_apply _ h hφ hacc hc p u).trans (Finset.sum_congr rfl fun k _ => ?_)
  show broadcastTo ⟨2, ![a, b]⟩ (shapeCast ⟨2, ![1, b]⟩ w h1) h2 (ix2 p k) * x (ix2 p k) = _
  rw [broadcastTo_1b_ab_apply, shapeCast_a_1a_apply]

/-- The grand total of a vector: laid out as one row, summed, cast to `[1, 1]` and taken out as a scalar. -/
theorem vecTotal_extract {b : ℕ} (v : FVec Ideal ⟨1, ![b]⟩ .f32) (h1 : (⟨1, ![b]⟩ : Shape).ShapeCasts ⟨2, ![1, b]⟩)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩
        (multiReduction .add [1] ⟨1, ![1]⟩ (shapeCast ⟨2, ![1, b]⟩ v h1) 0x00000000#32 h hφ hacc) hc) hp
      = ∑ k : Fin b, v (ix1 k) := by
  refine (rowTotal_extract _ h hφ hacc hc hp).trans (Finset.sum_congr rfl fun k _ => ?_)
  exact shapeCast_a_1a_apply v h1 0 k

end Cert.LibRowOps

end
-- ==== Proof.EdgePayload.lean ====
/-
  The edge pass's stored values read at an index, on the extended reals: the row sums of the incidence block, its
  narrowed copy (the same numbers), and the two accumulators — what the accumulator held plus this block's product of
  the transposed incidence block with the scaled features, respectively with a column of ones.
-/
import proofs.«159337_j13735305413432_2_alg».proof.Proof.Gen.KernelIdeal.Skeleton
import proofs.«159337_j13735305413432_2_alg».proof.Proof.Spec
import proofs.«159337_j13735305413432_2_alg».proof.Proof.LibColumn
import proofs.«159337_j13735305413432_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.EdgePayload

open Cert.KernelIdeal Cert.KernelIdeal.Gen Idealize.ShloMosaic.ValueIdx

theorem dotM_lhs0 (i : S1024x256.Idx) (q : dot_S2048x1024_S2048x256_S1024x256_0_0_1_1_n_n.contr.Idx) :
    (dot_S2048x1024_S2048x256_S1024x256_0_0_1_1_n_n.lhsIdx i q 0).val = (q ⟨0, by decide⟩).val :=
  dot_S2048x1024_S2048x256_S1024x256_0_0_1_1_n_n.lhsIdx_val_of_single rfl i q
theorem dotM_lhs1 (i : S1024x256.Idx) (q : dot_S2048x1024_S2048x256_S1024x256_0_0_1_1_n_n.contr.Idx) :
    (dot_S2048x1024_S2048x256_S1024x256_0_0_1_1_n_n.lhsIdx i q 1).val = (i 0).val := by
  unfold DotDims.lhsIdx
  rw [dif_neg (show ¬(1 : Fin S2048x1024.rank) ∈ dot_S2048x1024_S2048x256_S1024x256_0_0_1_1_n_n.lhsBatch by decide), dif_pos (show (1 : Fin S2048x1024.rank) ∈ dot_S2048x1024_S2048x256_S1024x256_0_0_1_1_n_n.lhsNonContracting by decide)]
  rfl
theorem dotM_rhs0 (i : S1024x256.Idx) (q : dot_S2048x1024_S2048x256_S1024x256_0_0_1_1_n_n.contr.Idx) :
    (dot_S2048x1024_S2048x256_S1024x256_0_0_1_1_n_n.rhsIdx i q 0).val = (q ⟨0, by decide⟩).val :=
  dot_S2048x1024_S2048x256_S1024x256_0_0_1_1_n_n.rhsIdx_val_of_single rfl i q
theorem dotM_rhs1 (i : S1024x256.Idx) (q : dot_S2048x1024_S2048x256_S1024x256_0_0_1_1_n_n.contr.Idx) :
    (dot_S2048x1024_S2048x256_S1024x256_0_0_1_1_n_n.rhsIdx i q 1).val = (i 1).val := by
  unfold DotDims.rhsIdx
  rw [dif_neg (show ¬(1 : Fin S2048x256.rank) ∈ dot_S2048x1024_S2048x256_S1024x256_0_0_1_1_n_n.rhsBatch by decide), dif_pos (show (1 : Fin S2048x256.rank) ∈ dot_S2048x1024_S2048x256_S1024x256_0_0_1_1_n_n.rhsNonContracting by decide)]
  rfl
/-- The transposed product into a zero accumulator: entry (p, q) sums, over the block's rows, left (row, p) times right (row, q). -/
theorem dotM_apply (prec : Option ContractPrecision) (l : FVec Ideal S2048x1024 .f32) (r : FVec Ideal S2048x256 .f32)
    (p : Fin 1024) (q : Fin 256) :
    matmul dot_S2048x1024_S2048x256_S1024x256_0_0_1_1_n_n prec l r (constant S1024x256 .f32 0x00000000#32) (ix2 p q)
      = ∑ k : Fin 2048, l (ix2 k p) * r (ix2 k q) := by
  simp only [matmul]
  rw [Ideal.matmul_constant_zero_apply, ← Equiv.sum_comp (contrEquiv1 dot_S2048x1024_S2048x256_S1024x256_0_0_1_1_n_n 2048 rfl rfl).symm]
  refine Finset.sum_congr rfl fun k _ => ?_
  have hk := contrEquiv1_symm_val dot_S2048x1024_S2048x256_S1024x256_0_0_1_1_n_n 2048 rfl rfl k
  have el : dot_S2048x1024_S2048x256_S1024x256_0_0_1_1_n_n.lhsIdx (ix2 p q) ((contrEquiv1 dot_S2048x1024_S2048x256_S1024x256_0_0_1_1_n_n 2048 rfl rfl).symm k) = ix2 k p := funext fun a => Fin.ext (by
    match a with
    | ⟨0, _⟩ => exact (dotM_lhs0 _ _).trans hk
    | ⟨1, _⟩ => exact dotM_lhs1 _ _)
  have er : dot_S2048x1024_S2048x256_S1024x256_0_0_1_1_n_n.rhsIdx (ix2 p q) ((contrEquiv1 dot_S2048x1024_S2048x256_S1024x256_0_0_1_1_n_n 2048 rfl rfl).symm k) = ix2 k q := funext fun a => Fin.ext (by
    match a with
    | ⟨0, _⟩ => exact (dotM_rhs0 _ _).trans hk
    | ⟨1, _⟩ => exact dotM_rhs1 _ _)
  rw [el, er]

theorem dotD_lhs0 (i : S1024x1.Idx) (q : dot_S2048x1024_S2048x1_S1024x1_0_0_1_1_n_n.contr.Idx) :
    (dot_S2048x1024_S2048x1_S1024x1_0_0_1_1_n_n.lhsIdx i q 0).val = (q ⟨0, by decide⟩).val :=
  dot_S2048x1024_S2048x1_S1024x1_0_0_1_1_n_n.lhsIdx_val_of_single rfl i q
theorem dotD_lhs1 (i : S1024x1.Idx) (q : dot_S2048x1024_S2048x1_S1024x1_0_0_1_1_n_n.contr.Idx) :
    (dot_S2048x1024_S2048x1_S1024x1_0_0_1_1_n_n.lhsIdx i q 1).val = (i 0).val := by
  unfold DotDims.lhsIdx
  rw [dif_neg (show ¬(1 : Fin S2048x1024.rank) ∈ dot_S2048x1024_S2048x1_S1024x1_0_0_1_1_n_n.lhsBatch by decide), dif_pos (show (1 : Fin S2048x1024.rank) ∈ dot_S2048x1024_S2048x1_S1024x1_0_0_1_1_n_n.lhsNonContracting by decide)]
  rfl
theorem dotD_rhs0 (i : S1024x1.Idx) (q : dot_S2048x1024_S2048x1_S1024x1_0_0_1_1_n_n.contr.Idx) :
    (dot_S2048x1024_S2048x1_S1024x1_0_0_1_1_n_n.rhsIdx i q 0).val = (q ⟨0, by decide⟩).val :=
  dot_S2048x1024_S2048x1_S1024x1_0_0_1_1_n_n.rhsIdx_val_of_single rfl i q
theorem dotD_rhs1 (i : S1024x1.Idx) (q : dot_S2048x1024_S2048x1_S1024x1_0_0_1_1_n_n.contr.Idx) :
    (dot_S2048x1024_S2048x1_S1024x1_0_0_1_1_n_n.rhsIdx i q 1).val = (i 1).val := by
  unfold DotDims.rhsIdx
  rw [dif_neg (show ¬(1 : Fin S2048x1.rank) ∈ dot_S2048x1024_S2048x1_S1024x1_0_0_1_1_n_n.rhsBatch by decide), dif_pos (show (1 : Fin S2048x1.rank) ∈ dot_S2048x1024_S2048x1_S1024x1_0_0_1_1_n_n.rhsNonContracting by decide)]
  rfl
/-- The same against a one-column right operand. -/
theorem dotD_apply (prec : Option ContractPrecision) (l : FVec Ideal S2048x1024 .f32) (r : FVec Ideal S2048x1 .f32)
    (p : Fin 1024) (q : Fin 1) :
    matmul dot_S2048x1024_S2048x1_S1024x1_0_0_1_1_n_n prec l r (constant S1024x1 .f32 0x00000000#32) (ix2 p q)
      = ∑ k : Fin 2048, l (ix2 k p) * r (ix2 k q) := by
  simp only [matmul]
  rw [Ideal.matmul_constant_zero_apply, ← Equiv.sum_comp (contrEquiv1 dot_S2048x1024_S2048x1_S1024x1_0_0_1_1_n_n 2048 rfl rfl).symm]
  refine Finset.sum_congr rfl fun k _ => ?_
  have hk := contrEquiv1_symm_val dot_S2048x1024_S2048x1_S1024x1_0_0_1_1_n_n 2048 rfl rfl k
  have el : dot_S2048x1024_S2048x1_S1024x1_0_0_1_1_n_n.lhsIdx (ix2 p q) ((contrEquiv1 dot_S2048x1024_S2048x1_S1024x1_0_0_1_1_n_n 2048 rfl rfl).symm k) = ix2 k p := funext fun a => Fin.ext (by
    match a with
    | ⟨0, _⟩ => exact (dotD_lhs0 _ _).trans hk
    | ⟨1, _⟩ => exact dotD_lhs1 _ _)
  have er : dot_S2048x1024_S2048x1_S1024x1_0_0_1_1_n_n.rhsIdx (ix2 p q) ((contrEquiv1 dot_S2048x1024_S2048x1_S1024x1_0_0_1_1_n_n 2048 rfl rfl).symm k) = ix2 k q := funext fun a => Fin.ext (by
    match a with
    | ⟨0, _⟩ => exact (dotD_rhs0 _ _).trans hk
    | ⟨1, _⟩ => exact dotD_rhs1 _ _)
  rw [el, er]

/-- The row sums kept as a column: entry (r, u) is the sum of row r of the block. -/
theorem pay2_apply (x0 : Vec Ideal S2048x1024 .f32) (r : Fin 2048) (u : Fin 1) :
    k0_pay2 (F := Ideal) x0 (ix2 r u) = ∑ k : Fin 1024, x0 (ix2 r k) := by
  unfold k0_pay2
  exact Cert.LibRowOps.rowSums_column_apply x0 _ _ _ _ r u

/-- The narrowed copy holds the same numbers. -/
theorem pay3_apply (x0 : Vec Ideal S2048x1024 .f32) (y : S2048x1024.Idx) :
    (k0_pay3 (F := Ideal) x0 y : EReal) = x0 y := rfl

/-- The zero fill of the feature accumulator. -/
theorem pay4_apply (u : Fin 1) (j : Fin 1024) (f : Fin 256) :
    (k0_pay4 (F := Ideal) (ix3 u j f) : EReal) = Cert.Hgnn.zero := by
  unfold k0_pay4
  exact shapeCast_ab_1ab_apply _ _ u j f

/-- The zero fill of the degree accumulator. -/
theorem pay5_apply (u : Fin 1) (j : Fin 1024) (w : Fin 1) :
    (k0_pay5 (F := Ideal) (ix3 u j w) : EReal) = Cert.Hgnn.zero := by
  unfold k0_pay5
  exact shapeCast_ab_1ab_apply _ _ u j w

/-- The feature accumulator after a point: what it held at (j, f), plus the sum over the block's rows of the
    incidence entry (row, j) times the feature (row, f) scaled by one over the root of the row's sum. -/
theorem pay6_apply (x0 : Vec Ideal S2048x1024 .f32) (x1 : Vec Ideal S2048x256 .f32) (acc : Vec Ideal S1x1024x256 .f32)
    (u : Fin 1) (j : Fin 1024) (f : Fin 256) :
    (k0_pay6 (F := Ideal) x0 x1 acc (ix3 u j f) : EReal)
      = acc (ix3 (0 : Fin 1) j f) + ∑ r : Fin 2048, x0 (ix2 r j)
          * (x1 (ix2 r f) * Ideal.div Cert.Hgnn.one (Ideal.sqrt (∑ k : Fin 1024, x0 (ix2 r k)))) := by
  unfold k0_pay6
  refine (shapeCast_ab_1ab_apply _ _ u j f).trans ?_
  refine congrArg₂ (· + ·) (shapeCast_1ab_ab_apply acc _ j f) ?_
  refine (dotM_apply _ x0 _ j f).trans (Finset.sum_congr rfl fun r _ => ?_)
  refine congrArg (x0 (ix2 r j) * ·) ?_
  refine congrArg (x1 (ix2 r f) * ·) ?_
  refine (Cert.LibColumn.broadcastTo_a1_ab_apply _ _ r f).trans ?_
  exact congrArg (fun s => Ideal.div Cert.Hgnn.one (Ideal.sqrt s)) (pay2_apply x0 r 0)

/-- The degree accumulator after a point: what it held at j, plus the sum over the block's rows of the incidence
    entry (row, j) times one. -/
theorem pay71_apply (x0 : Vec Ideal S2048x1024 .f32) (acc : Vec Ideal S1x1024x1 .f32) (u : Fin 1) (j : Fin 1024) (w : Fin 1) :
    (k0_pay1 (F := Ideal) (k0_pay7 (F := Ideal) x0 acc) (ix3 u j w) : EReal)
      = acc (ix3 (0 : Fin 1) j w) + ∑ r : Fin 2048, x0 (ix2 r j) * Cert.Hgnn.one := by
  unfold k0_pay1 k0_pay7
  refine (shapeCast_ab_1ab_apply _ _ u j w).trans ?_
  refine congrArg₂ (· + ·) (shapeCast_1ab_ab_apply acc _ j w) ?_
  exact dotD_apply _ x0 _ j w

end Cert.KernelIdeal.EdgePayload

end
-- ==== Proof.EdgeValue.lean ====
/-
  What the edge pass leaves in its four output arrays, as functions of the incidence array H and the feature array X
  it finds: the column of row sums of H; H itself in the short format; and, per half of the rows, the accumulated
  product Hᵀ · (X scaled by one over the root of the row sum) and the accumulated column sums of H. A half is two
  consecutive blocks of 2048 rows; its accumulators start from zero at its first block and are written back after its
  second.
-/
import proofs.«159337_j13735305413432_2_alg».proof.Proof.Gen.KernelIdeal.Frame
import proofs.«159337_j13735305413432_2_alg».proof.Proof.Spec
import proofs.«159337_j13735305413432_2_alg».proof.Proof.EdgePieces
import proofs.«159337_j13735305413432_2_alg».proof.Proof.EdgePayload
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.EdgeValue

open Cert.KernelIdeal Cert.KernelIdeal.Gen Idealize.ShloMosaic.ValueIdx
open Cert.Hgnn (row blk blkSum halfSum kDv kScale kMp kDp one zero)

variable (V : (c : Dev nD) → (b : Ref sig .tc) → Buf (Elt Ideal) ((c : Thread nD τ).loc b))

set_option maxRecDepth 16384

theorem hN : cfg0.N = 4 := N_0

/-- A grid point as one of the four row blocks. -/
def t4 (t : Fin cfg0.N) : Fin 4 := ⟨t.val, lt_of_lt_of_eq t.isLt hN⟩

/-- The incidence and feature arrays as the pass finds them, by coordinates. -/
def Hc (c : Dev nD) : Fin 8192 → Fin 1024 → EReal := fun i j => V c main_arg1 (ix2 i j)
def Xc (c : Dev nD) : Fin 8192 → Fin 256 → EReal := fun i f => V c main_arg0 (ix2 i f)

/-- The windows' block indices over the grid: the row-blocked windows sit at the point's number, the per-half
    accumulators at the point's half. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val / 2 ∧ win0_4.index t (1 : Fin 3) = 0 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)

/-- The incidence block of point t is rows 2048·t … of H. -/
theorem iblkH (c : Dev nD) (t : Fin cfg0.N) (r : Fin 2048) (k : Fin 1024) :
    (iblk0 V c 0 t : S2048x1024.Idx → EReal) (ix2 r k) = Hc V c (row (t4 t) r) k := by
  unfold iblk0 Hc
  rw [View.read_apply]
  show V c main_arg1 (((cfg0.win 0).blk t).view.emb (ix2 r k)) = _
  refine congrArg (V c main_arg1) (funext fun a => Fin.ext ?_)
  obtain ⟨e0, e1, -⟩ := idx_facts t
  match a with
  | ⟨0, _⟩ => show win0_0.index t (0 : Fin 2) * 2048 + 1 * r.val = 2048 * t.val + r.val; rw [e0]; omega
  | ⟨1, _⟩ => show win0_0.index t (1 : Fin 2) * 1024 + 1 * k.val = k.val; rw [e1]; omega

/-- The feature block of point t is rows 2048·t … of X. -/
theorem iblkX (c : Dev nD) (t : Fin cfg0.N) (r : Fin 2048) (f : Fin 256) :
    (iblk0 V c 1 t : S2048x256.Idx → EReal) (ix2 r f) = Xc V c (row (t4 t) r) f := by
  unfold iblk0 Xc
  rw [View.read_apply]
  show V c main_arg0 (((cfg0.win 1).blk t).view.emb (ix2 r f)) = _
  refine congrArg (V c main_arg0) (funext fun a => Fin.ext ?_)
  obtain ⟨-, -, e0, e1, -⟩ := idx_facts t
  match a with
  | ⟨0, _⟩ => show win0_1.index t (0 : Fin 2) * 2048 + 1 * r.val = 2048 * t.val + r.val; rw [e0]; omega
  | ⟨1, _⟩ => show win0_1.index t (1 : Fin 2) * 256 + 1 * f.val = f.val; rw [e1]; omega

/-! ## A block's contributions, over any block that is rows of H and X -/

section Block
variable (H : Fin 8192 → Fin 1024 → EReal) (X : Fin 8192 → Fin 256 → EReal) (T : Fin 4)
  (x0 : Vec Ideal S2048x1024 .f32) (x1 : Vec Ideal S2048x256 .f32)
  (h0 : ∀ r k, (x0 (ix2 r k) : EReal) = H (row T r) k) (h1 : ∀ r f, (x1 (ix2 r f) : EReal) = X (row T r) f)
include h0

/-- The block's row sums are the degrees of its rows. -/
theorem blk_dv (r : Fin 2048) (u : Fin 1) : (k0_pay2 (F := Ideal) x0 (ix2 r u) : EReal) = kDv H (row T r) :=
  (EdgePayload.pay2_apply x0 r u).trans (Finset.sum_congr rfl fun k _ => h0 r k)

/-- The block's share of a column sum. -/
theorem blk_de (j : Fin 1024) : ∑ r : Fin 2048, (x0 (ix2 r j) : EReal) * one = blkSum (fun i => H i j * one) T :=
  Finset.sum_congr rfl fun r _ => by rw [h0 r j]

include h1
/-- The block's share of Hᵀ · (scaled features). -/
theorem blk_m (j : Fin 1024) (f : Fin 256) :
    ∑ r : Fin 2048, (x0 (ix2 r j) : EReal) * (x1 (ix2 r f) * Ideal.div one (Ideal.sqrt (∑ k : Fin 1024, x0 (ix2 r k))))
      = blkSum (fun i => H i j * (X i f * kScale H i)) T :=
  Finset.sum_congr rfl fun r _ => by
    rw [h0 r j, h1 r f, show (∑ k : Fin 1024, (x0 (ix2 r k) : EReal)) = kDv H (row T r) from Finset.sum_congr rfl fun k _ => h0 r k]
    rfl
end Block

/-- A half's feature accumulator after its two blocks. -/
theorem half_m (H : Fin 8192 → Fin 1024 → EReal) (X : Fin 8192 → Fin 256 → EReal) (cc : Fin 2)
    (xa xb : Vec Ideal S2048x1024 .f32) (ya yb : Vec Ideal S2048x256 .f32)
    (ha : ∀ r k, (xa (ix2 r k) : EReal) = H (row (blk cc 0) r) k) (hb : ∀ r k, (xb (ix2 r k) : EReal) = H (row (blk cc 1) r) k)
    (ga : ∀ r f, (ya (ix2 r f) : EReal) = X (row (blk cc 0) r) f) (gb : ∀ r f, (yb (ix2 r f) : EReal) = X (row (blk cc 1) r) f)
    (u : Fin 1) (j : Fin 1024) (f : Fin 256) :
    (k0_pay6 (F := Ideal) xb yb (k0_pay6 (F := Ideal) xa ya (k0_pay4 (F := Ideal))) (ix3 u j f) : EReal) = kMp H X cc j f := by
  rw [EdgePayload.pay6_apply xb yb _ u j f, EdgePayload.pay6_apply xa ya _ 0 j f, EdgePayload.pay4_apply,
    blk_m H X (blk cc 0) xa ya ha ga j f, blk_m H X (blk cc 1) xb yb hb gb j f]
  rfl

/-- A half's degree accumulator after its two blocks. -/
theorem half_de (H : Fin 8192 → Fin 1024 → EReal) (cc : Fin 2) (xa xb : Vec Ideal S2048x1024 .f32)
    (ha : ∀ r k, (xa (ix2 r k) : EReal) = H (row (blk cc 0) r) k) (hb : ∀ r k, (xb (ix2 r k) : EReal) = H (row (blk cc 1) r) k)
    (u : Fin 1) (j : Fin 1024) (w : Fin 1) :
    (k0_pay1 (F := Ideal) (k0_pay7 (F := Ideal) xb (k0_pay1 (F := Ideal) (k0_pay7 (F := Ideal) xa (k0_pay5 (F := Ideal))))) (ix3 u j w) : EReal)
      = kDp H cc j := by
  rw [EdgePayload.pay71_apply xb _ u j w, EdgePayload.pay71_apply xa _ 0 j w, EdgePayload.pay5_apply,
    blk_de H (blk cc 0) xa ha j, blk_de H (blk cc 1) xb hb j]
  rfl

/-! ## What the staging buffers hold after a point -/

/-- After the first point of a half. -/
theorem outs_first (c : Dev nD) (t : Fin cfg0.N) (h0 : t.val % 2 = 0) :
    outsAt0 V c t.val t.isLt = (k0_pay2 (iblk0 V c 0 t), k0_pay3 (iblk0 V c 0 t),
      k0_pay6 (iblk0 V c 0 t) (iblk0 V c 1 t) (k0_pay4 (F := Ideal)), k0_pay1 (k0_pay7 (iblk0 V c 0 t) (k0_pay5 (F := Ideal)))) :=
  (outsAt0_A V c t h0).trans (congrArg₂ Prod.mk
    (EdgePieces.out_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t))
    (congrArg₂ Prod.mk (EdgePieces.out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t))
      (congrArg₂ Prod.mk (EdgePieces.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t))
        (EdgePieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t)))))

/-- After the second point of a half: the accumulators continue from the point before. -/
theorem outs_second (c : Dev nD) (t : Fin cfg0.N) (h0 : ¬t.val % 2 = 0) :
    outsAt0 V c t.val t.isLt = (k0_pay2 (iblk0 V c 0 t), k0_pay3 (iblk0 V c 0 t),
      k0_pay6 (iblk0 V c 0 t) (iblk0 V c 1 t) (outsAt0 V c (t.val - 1) (Nat.lt_of_le_of_lt (Nat.sub_le _ _) t.isLt)).2.2.1,
      k0_pay1 (k0_pay7 (iblk0 V c 0 t) (outsAt0 V c (t.val - 1) (Nat.lt_of_le_of_lt (Nat.sub_le _ _) t.isLt)).2.2.2)) :=
  (outsAt0_B V c t h0).trans (congrArg₂ Prod.mk
    (EdgePieces.out_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2)
    (congrArg₂ Prod.mk (EdgePieces.out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2)
      (congrArg₂ Prod.mk (EdgePieces.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2)
        (EdgePieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2))))

/-- The row-sum column and the narrowed copy after any point. -/
theorem outs_dv (c : Dev nD) (t : Fin cfg0.N) : (outsAt0 V c t.val t.isLt).1 = k0_pay2 (iblk0 V c 0 t) := by
  by_cases h0 : t.val % 2 = 0
  · rw [outs_first V c t h0]
  · rw [outs_second V c t h0]
theorem outs_hb (c : Dev nD) (t : Fin cfg0.N) : (outsAt0 V c t.val t.isLt).2.1 = k0_pay3 (iblk0 V c 0 t) := by
  by_cases h0 : t.val % 2 = 0
  · rw [outs_first V c t h0]
  · rw [outs_second V c t h0]

end Cert.KernelIdeal.EdgeValue

end
-- ==== Proof.EdgeArrays.lean ====
/-
  The edge pass's four output arrays after the pass: each block written back is the matching block of one function of
  H and X, and the blocks written back cover the array — the row-blocked outputs at every point, the per-half
  accumulators at the second point of each half.
-/
import proofs.«159337_j13735305413432_2_alg».proof.Proof.EdgeValue

noncomputable section

open Idealize.ShloMosaic Idealize.ShloMosaic.TcCoe Idealize.SL.Sem
open Idealize.ShloMosaic.Pipeline (Dat)

namespace Cert.KernelIdeal.EdgeArrays

open Cert.KernelIdeal Cert.KernelIdeal.Gen Idealize.ShloMosaic.ValueIdx Cert.KernelIdeal.EdgeValue
open Cert.Hgnn (row blk blkSum halfSum kDv kScale kMp kDp one zero)

variable (V : (c : Dev nD) → (b : Ref sig .tc) → Buf (Elt Ideal) ((c : Thread nD τ).loc b))

set_option maxRecDepth 16384

/-- The column of row sums. -/
def G2 (c : Dev nD) : S8192x1.Idx → EReal := fun i => kDv (Hc V c) ⟨(i 0).val, (i 0).isLt⟩
/-- The incidence array again. -/
def G3 (c : Dev nD) : S8192x1024.Idx → EReal := fun i => Hc V c ⟨(i 0).val, (i 0).isLt⟩ ⟨(i 1).val, (i 1).isLt⟩
/-- The halves' partial products. -/
def G4 (c : Dev nD) : S2x1024x256.Idx → EReal := fun i => kMp (Hc V c) (Xc V c) ⟨(i 0).val, (i 0).isLt⟩ ⟨(i 1).val, (i 1).isLt⟩ ⟨(i 2).val, (i 2).isLt⟩
/-- The halves' partial column sums. -/
def G5 (c : Dev nD) : S2x1024x1.Idx → EReal := fun i => kDp (Hc V c) ⟨(i 0).val, (i 0).isLt⟩ ⟨(i 1).val, (i 1).isLt⟩

theorem t_lt (t : Fin cfg0.N) : t.val < 4 := lt_of_lt_of_eq t.isLt hN

/-! ## What each flushing point writes back -/

theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2, outs_dv]
  funext y
  obtain ⟨r, u, rfl⟩ : ∃ (r : Fin 2048) (u : Fin 1), y = ix2 r u := ⟨y 0, y 1, eq_ix2 y⟩
  rw [View.read_apply]
  refine (blk_dv (Hc V c) (t4 t) (iblk0 V c 0 t) (iblkH V c t) r u).trans ?_
  refine congrArg (kDv (Hc V c)) (Fin.ext ?_)
  obtain ⟨-, -, -, -, e0, -⟩ := idx_facts t
  show 2048 * t.val + r.val = win0_2.index t (0 : Fin 2) * 2048 + 1 * r.val
  rw [e0]; omega

theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3, outs_hb]
  funext y
  obtain ⟨r, k, rfl⟩ : ∃ (r : Fin 2048) (k : Fin 1024), y = ix2 r k := ⟨y 0, y 1, eq_ix2 y⟩
  rw [View.read_apply]
  refine (iblkH V c t r k).trans ?_
  obtain ⟨-, -, -, -, -, -, e0, e1, -⟩ := idx_facts t
  exact congr (congrArg (Hc V c) (Fin.ext (by show 2048 * t.val + r.val = win0_3.index t (0 : Fin 2) * 2048 + 1 * r.val; rw [e0]; omega)))
    (Fin.ext (by show k.val = win0_3.index t (1 : Fin 2) * 1024 + 1 * k.val; rw [e1]; omega))

/-- The half a second point closes, its first point, and the two as blocks of the half. -/
theorem half_facts (t : Fin cfg0.N) (h1 : t.val % 2 = 1) :
    ∃ (cc : Fin 2) (t' : Fin cfg0.N), cc.val = t.val / 2 ∧ t'.val = t.val - 1 ∧ t'.val % 2 = 0 ∧ t4 t' = blk cc 0 ∧ t4 t = blk cc 1 := by
  have ht := t_lt t
  refine ⟨⟨t.val / 2, by omega⟩, ⟨t.val - 1, lt_of_le_of_lt (Nat.sub_le _ _) t.isLt⟩, rfl, rfl, ?_, Fin.ext ?_, Fin.ext ?_⟩
  · show (t.val - 1) % 2 = 0; omega
  · show t.val - 1 = 2 * (t.val / 2) + 0; omega
  · show t.val = 2 * (t.val / 2) + 1; omega

/-- After a half's second point the accumulators hold the half's two blocks over the zero fill. -/
theorem outs_acc (c : Dev nD) (t t' : Fin cfg0.N) (h1 : t.val % 2 = 1) (ht' : t'.val = t.val - 1) (h0' : t'.val % 2 = 0) :
    (outsAt0 V c t.val t.isLt).2.2.1 = k0_pay6 (iblk0 V c 0 t) (iblk0 V c 1 t) (k0_pay6 (iblk0 V c 0 t') (iblk0 V c 1 t') (k0_pay4 (F := Ideal)))
    ∧ (outsAt0 V c t.val t.isLt).2.2.2 = k0_pay1 (k0_pay7 (iblk0 V c 0 t) (k0_pay1 (k0_pay7 (iblk0 V c 0 t') (k0_pay5 (F := Ideal))))) := by
  have hp : outsAt0 V c (t.val - 1) (Nat.lt_of_le_of_lt (Nat.sub_le _ _) t.isLt) = outsAt0 V c t'.val t'.isLt := by
    congr 1; exact ht'.symm
  rw [outs_second V c t (by omega), hp, outs_first V c t' h0']
  exact ⟨rfl, rfl⟩

theorem flushed4_eq (c : Dev nD) (t : Fin cfg0.N) (h1 : t.val % 2 = 1) :
    (dat0 V c).flushed 4 t = ((cfg0.win 4).blk t).view.read (Elt Ideal) (G4 V c) := by
  obtain ⟨cc, t', hcc, ht', h0', ea, eb⟩ := half_facts t h1
  show (cfg0.win 4).cut (grid0.coords t) ((dat0 V c).after 4 t) = _
  rw [after0_4, (outs_acc V c t t' h1 ht' h0').1]
  funext y
  obtain ⟨u, j, f, rfl⟩ : ∃ (u : Fin 1) (j : Fin 1024) (f : Fin 256), y = ix3 u j f := ⟨y 0, y 1, y 2, eq_ix3 y⟩
  rw [View.read_apply]
  refine (half_m (Hc V c) (Xc V c) cc (iblk0 V c 0 t') (iblk0 V c 0 t) (iblk0 V c 1 t') (iblk0 V c 1 t)
    (fun r k => (iblkH V c t' r k).trans (by rw [ea])) (fun r k => (iblkH V c t r k).trans (by rw [eb]))
    (fun r f => (iblkX V c t' r f).trans (by rw [ea])) (fun r f => (iblkX V c t r f).trans (by rw [eb])) u j f).trans ?_
  obtain ⟨-, -, -, -, -, -, -, -, e0, e1, e2, -⟩ := idx_facts t
  have hu : u.val = 0 := by omega
  exact congr (congr (congrArg (kMp (Hc V c) (Xc V c))
      (Fin.ext (by show cc.val = win0_4.index t (0 : Fin 3) * 1 + 1 * u.val; rw [e0, hcc, hu]; omega)))
      (Fin.ext (by show j.val = win0_4.index t (1 : Fin 3) * 1024 + 1 * j.val; rw [e1]; omega)))
    (Fin.ext (by show f.val = win0_4.index t (2 : Fin 3) * 256 + 1 * f.val; rw [e2]; omega))

theorem flushed5_eq (c : Dev nD) (t : Fin cfg0.N) (h1 : t.val % 2 = 1) :
    (dat0 V c).flushed 5 t = ((cfg0.win 5).blk t).view.read (Elt Ideal) (G5 V c) := by
  obtain ⟨cc, t', hcc, ht', h0', ea, eb⟩ := half_facts t h1
  show (cfg0.win 5).cut (grid0.coords t) ((dat0 V c).after 5 t) = _
  rw [after0_5, (outs_acc V c t t' h1 ht' h0').2]
  funext y
  obtain ⟨u, j, w, rfl⟩ : ∃ (u : Fin 1) (j : Fin 1024) (w : Fin 1), y = ix3 u j w := ⟨y 0, y 1, y 2, eq_ix3 y⟩
  rw [View.read_apply]
  refine (half_de (Hc V c) cc (iblk0 V c 0 t') (iblk0 V c 0 t)
    (fun r k => (iblkH V c t' r k).trans (by rw [ea])) (fun r k => (iblkH V c t r k).trans (by rw [eb])) u j w).trans ?_
  obtain ⟨-, -, -, -, -, -, -, -, -, -, -, e0, e1, -⟩ := idx_facts t
  have hu : u.val = 0 := by omega
  exact congr (congrArg (kDp (Hc V c))
      (Fin.ext (by show cc.val = win0_5.index t (0 : Fin 3) * 1 + 1 * u.val; rw [e0, hcc, hu]; omega)))
      (Fin.ext (by show j.val = win0_5.index t (1 : Fin 3) * 1024 + 1 * j.val; rw [e1]; omega))

/-! ## The blocks written back cover each array -/

/-- An index of output 2's array lies in point t's block iff each coordinate lies in the block's range on its axis. -/
theorem mem_blk2 (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0_0).slice (win0_2.rect t)).set ↔ _
  rw [View.set_slice_whole, Rect.mem_set_unit]
  exact Iff.rfl

/-- An index of output 3's array lies in point t's block iff each coordinate lies in the block's range on its axis. -/
theorem mem_blk3 (t : Fin cfg0.N) (i : S8192x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v0_1).slice (win0_3.rect t)).set ↔ _
  rw [View.set_slice_whole, Rect.mem_set_unit]
  exact Iff.rfl

/-- An index of output 4's array lies in point t's block iff each coordinate lies in the block's range on its axis. -/
theorem mem_blk4 (t : Fin cfg0.N) (i : S2x1024x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v0_2).slice (win0_4.rect t)).set ↔ _
  rw [View.set_slice_whole, Rect.mem_set_unit]
  exact Iff.rfl

/-- An index of output 5's array lies in point t's block iff each coordinate lies in the block's range on its axis. -/
theorem mem_blk5 (t : Fin cfg0.N) (i : S2x1024x1.Idx) :
    i ∈ ((cfg0.win 5).blk t).view.set ↔ ∀ a : Fin 3, win0_5.index t a * S1x1024x1.size a ≤ (i a).val ∧ (i a).val < win0_5.index t a * S1x1024x1.size a + S1x1024x1.size a := by
  show i ∈ ((View.whole main_v0_3).slice (win0_5.rect t)).set ↔ _
  rw [View.set_slice_whole, Rect.mem_set_unit]
  exact Iff.rfl

theorem cover2 (i : S8192x1.Idx) : ∃ t : Fin cfg0.N, (cfg0.win 2).flush t = true ∧ i ∈ ((cfg0.win 2).blk t).view.set := by
  have h0 : (i 0).val < 8192 := (i 0).isLt
  have h1 : (i 1).val < 1 := (i 1).isLt
  refine ⟨⟨(i 0).val / 2048, lt_of_lt_of_eq (by omega) hN.symm⟩, flush0_2 _, ?_⟩
  rw [mem_blk2]
  obtain ⟨-, -, -, -, e0, e1, -⟩ := idx_facts ⟨(i 0).val / 2048, lt_of_lt_of_eq (by omega) hN.symm⟩
  intro a
  match a with
  | ⟨0, _⟩ => show win0_2.index _ (0 : Fin 2) * 2048 ≤ (i 0).val ∧ (i 0).val < win0_2.index _ (0 : Fin 2) * 2048 + 2048; rw [e0]; show (i 0).val / 2048 * 2048 ≤ _ ∧ _ < (i 0).val / 2048 * 2048 + 2048; omega
  | ⟨1, _⟩ => show win0_2.index _ (1 : Fin 2) * 1 ≤ (i 1).val ∧ (i 1).val < win0_2.index _ (1 : Fin 2) * 1 + 1; rw [e1]; omega

theorem cover3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  refine ⟨⟨(i 0).val / 2048, lt_of_lt_of_eq (by omega) hN.symm⟩, flush0_3 _, ?_⟩
  rw [mem_blk3]
  obtain ⟨-, -, -, -, -, -, e0, e1, -⟩ := idx_facts ⟨(i 0).val / 2048, lt_of_lt_of_eq (by omega) hN.symm⟩
  intro a
  match a with
  | ⟨0, _⟩ => show win0_3.index _ (0 : Fin 2) * 2048 ≤ (i 0).val ∧ (i 0).val < win0_3.index _ (0 : Fin 2) * 2048 + 2048; rw [e0]; show (i 0).val / 2048 * 2048 ≤ _ ∧ _ < (i 0).val / 2048 * 2048 + 2048; omega
  | ⟨1, _⟩ => show win0_3.index _ (1 : Fin 2) * 1024 ≤ (i 1).val ∧ (i 1).val < win0_3.index _ (1 : Fin 2) * 1024 + 1024; rw [e1]; omega

theorem cover4 (i : S2x1024x256.Idx) : ∃ t : Fin cfg0.N, (cfg0.win 4).flush t = true ∧ i ∈ ((cfg0.win 4).blk t).view.set := by
  have h0 : (i 0).val < 2 := (i 0).isLt
  have h1 : (i 1).val < 1024 := (i 1).isLt
  have h2 : (i 2).val < 256 := (i 2).isLt
  refine ⟨⟨2 * (i 0).val + 1, lt_of_lt_of_eq (by omega) hN.symm⟩, (flush0_4 _).mpr (by show (2 * (i 0).val + 1) % 2 = 1; omega), ?_⟩
  rw [mem_blk4]
  obtain ⟨-, -, -, -, -, -, -, -, e0, e1, e2, -⟩ := idx_facts ⟨2 * (i 0).val + 1, lt_of_lt_of_eq (by omega) hN.symm⟩
  intro a
  match a with
  | ⟨0, _⟩ => show win0_4.index _ (0 : Fin 3) * 1 ≤ (i 0).val ∧ (i 0).val < win0_4.index _ (0 : Fin 3) * 1 + 1; rw [e0]; show (2 * (i 0).val + 1) / 2 * 1 ≤ _ ∧ _ < (2 * (i 0).val + 1) / 2 * 1 + 1; omega
  | ⟨1, _⟩ => show win0_4.index _ (1 : Fin 3) * 1024 ≤ (i 1).val ∧ (i 1).val < win0_4.index _ (1 : Fin 3) * 1024 + 1024; rw [e1]; omega
  | ⟨2, _⟩ => show win0_4.index _ (2 : Fin 3) * 256 ≤ (i 2).val ∧ (i 2).val < win0_4.index _ (2 : Fin 3) * 256 + 256; rw [e2]; omega

theorem cover5 (i : S2x1024x1.Idx) : ∃ t : Fin cfg0.N, (cfg0.win 5).flush t = true ∧ i ∈ ((cfg0.win 5).blk t).view.set := by
  have h0 : (i 0).val < 2 := (i 0).isLt
  have h1 : (i 1).val < 1024 := (i 1).isLt
  have h2 : (i 2).val < 1 := (i 2).isLt
  refine ⟨⟨2 * (i 0).val + 1, lt_of_lt_of_eq (by omega) hN.symm⟩, (flush0_5 _).mpr (by show (2 * (i 0).val + 1) % 2 = 1; omega), ?_⟩
  rw [mem_blk5]
  obtain ⟨-, -, -, -, -, -, -, -, -, -, -, e0, e1, e2⟩ := idx_facts ⟨2 * (i 0).val + 1, lt_of_lt_of_eq (by omega) hN.symm⟩
  intro a
  match a with
  | ⟨0, _⟩ => show win0_5.index _ (0 : Fin 3) * 1 ≤ (i 0).val ∧ (i 0).val < win0_5.index _ (0 : Fin 3) * 1 + 1; rw [e0]; show (2 * (i 0).val + 1) / 2 * 1 ≤ _ ∧ _ < (2 * (i 0).val + 1) / 2 * 1 + 1; omega
  | ⟨1, _⟩ => show win0_5.index _ (1 : Fin 3) * 1024 ≤ (i 1).val ∧ (i 1).val < win0_5.index _ (1 : Fin 3) * 1024 + 1024; rw [e1]; omega
  | ⟨2, _⟩ => show win0_5.index _ (2 : Fin 3) * 1 ≤ (i 2).val ∧ (i 2).val < win0_5.index _ (2 : Fin 3) * 1 + 1; rw [e2]; omega

/-! ## The arrays after the pass -/

theorem final2 (c : Dev nD) : (dat0 V c).arrAt 2 cfg0.N = G2 V c :=
  (dat0 V c).arrAt_eq_of_cover 2 (G2 V c) (fun t _ => flushed2_eq V c t) cover2
theorem final3 (c : Dev nD) : (dat0 V c).arrAt 3 cfg0.N = G3 V c :=
  (dat0 V c).arrAt_eq_of_cover 3 (G3 V c) (fun t _ => flushed3_eq V c t) cover3
theorem final4 (c : Dev nD) : (dat0 V c).arrAt 4 cfg0.N = G4 V c :=
  (dat0 V c).arrAt_eq_of_cover 4 (G4 V c) (fun t hf => flushed4_eq V c t ((flush0_4 t).mp hf)) cover4
theorem final5 (c : Dev nD) : (dat0 V c).arrAt 5 cfg0.N = G5 V c :=
  (dat0 V c).arrAt_eq_of_cover 5 (G5 V c) (fun t hf => flushed5_eq V c t ((flush0_5 t).mp hf)) cover5

end Cert.KernelIdeal.EdgeArrays

end
-- ==== Proof.LibStack.lean ====
/-
  A stack of matrices cut along its leading axis, read at an index at any sizes.
-/
import Idealize.ShloMosaic.Lib.Pipeline.Value
import Idealize.ShloMosaic.Lib.ValueIdx

namespace Cert.LibStack

open Idealize.ShloMosaic Idealize.ShloMosaic.ValueIdx

variable {α : Type}

/-- An `[n0, n1, n2]` array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

end Cert.LibStack
-- ==== Proof.Glue.lean ====
/-
  What the node pass finds in the buffers the host fills between the passes: the edge features are the two halves'
  partial products added, divided entry by entry by the two halves' partial column sums added; the bias is laid out as
  one row; the narrowed incidence array, the degree column and the dense weight pass through untouched.
-/
import proofs.«159337_j13735305413432_2_alg».proof.Proof.Gen.KernelIdeal.Frame
import proofs.«159337_j13735305413432_2_alg».proof.Proof.LibStack
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Glue

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- The buffers by their contents' types. -/
def hbIn (c : Dev nD) : FVec Ideal S8192x1024 .bf16 := W1 m ρ c (Proc.devRef .tc main_v0_1)
def dvIn (c : Dev nD) : FVec Ideal S8192x1 .f32 := W1 m ρ c (Proc.devRef .tc main_v0_0)
def wIn (c : Dev nD) : FVec Ideal S256x256 .f32 := W1 m ρ c (Proc.devRef .tc main_arg2)
def bIn (c : Dev nD) : FVec Ideal S256 .f32 := W1 m ρ c (Proc.devRef .tc main_arg3)
def mpIn (c : Dev nD) : FVec Ideal S2x1024x256 .f32 := W1 m ρ c (Proc.devRef .tc main_v0_2)
def dpIn (c : Dev nD) : FVec Ideal S2x1024x1 .f32 := W1 m ρ c (Proc.devRef .tc main_v0_3)
def hbOut (c : Dev nD) : FVec Ideal S8192x1024 .bf16 := V2 m ρ c main_v0_1
def dvOut (c : Dev nD) : FVec Ideal S8192x1 .f32 := V2 m ρ c main_v0_0
def wOut (c : Dev nD) : FVec Ideal S256x256 .f32 := V2 m ρ c main_arg2
def bOut (c : Dev nD) : FVec Ideal S1x256 .f32 := V2 m ρ c main_v13
def mOut (c : Dev nD) : FVec Ideal S1024x256 .f32 := V2 m ρ c main_v12

/-- The narrowed incidence array passes through. -/
theorem glue_hb (c : Dev nD) : hbOut m ρ c = hbIn m ρ c := by
  show StableHlo.after hostOps1 (W1 m ρ c) (Proc.devRef .tc main_v0_1) = _
  after_results
  rfl

/-- The degree column passes through. -/
theorem glue_dv (c : Dev nD) : dvOut m ρ c = dvIn m ρ c := by
  show StableHlo.after hostOps1 (W1 m ρ c) (Proc.devRef .tc main_v0_0) = _
  after_results
  rfl

/-- The dense weight passes through. -/
theorem glue_w (c : Dev nD) : wOut m ρ c = wIn m ρ c := by
  show StableHlo.after hostOps1 (W1 m ρ c) (Proc.devRef .tc main_arg2) = _
  after_results
  rfl

/-- The bias as one row: entry (u, o) is the bias at o. -/
theorem glue_b (c : Dev nD) (u : Fin 1) (o : Fin 256) : (bOut m ρ c (ix2 u o) : EReal) = bIn m ρ c (ix1 o) := by
  have e : bOut m ρ c = shapeCast S1x256 (bIn m ρ c) shapeCasts_S256_S1x256 := by
    show StableHlo.after hostOps1 (W1 m ρ c) (Proc.devRef .tc main_v13) = _
    after_results
    rfl
  rw [e]
  exact shapeCast_a_1a_apply _ _ u o

/-- The edge features at (j, f): the halves' partial products added, over the halves' partial column sums added. -/
theorem glue_m (c : Dev nD) (j : Fin 1024) (f : Fin 256) :
    (mOut m ρ c (ix2 j f) : EReal)
      = Ideal.div (mpIn m ρ c (ix3 (0 : Fin 2) j f) + mpIn m ρ c (ix3 (1 : Fin 2) j f))
          (dpIn m ρ c (ix3 (0 : Fin 2) j (0 : Fin 1)) + dpIn m ρ c (ix3 (1 : Fin 2) j (0 : Fin 1))) := by
  have e : mOut m ρ c
      = Host.divf (F := Ideal)
          (addf (shapeCast S1024x256 (extractStridedSlice S1x1024x256 ![0, 0, 0] (mpIn m ρ c) slices_S2x1024x256_S1x1024x256_0_0_0) shapeCasts_S1x1024x256_S1024x256)
            (shapeCast S1024x256 (extractStridedSlice S1x1024x256 ![1, 0, 0] (mpIn m ρ c) slices_S2x1024x256_S1x1024x256_1_0_0) shapeCasts_S1x1024x256_S1024x256))
          (broadcastInDim S1024x256 ![0, 1] bcast_S1024x1_S1024x256_0_1
            (addf (shapeCast S1024x1 (extractStridedSlice S1x1024x1 ![0, 0, 0] (dpIn m ρ c) slices_S2x1024x1_S1x1024x1_0_0_0) shapeCasts_S1x1024x1_S1024x1)
              (shapeCast S1024x1 (extractStridedSlice S1x1024x1 ![1, 0, 0] (dpIn m ρ c) slices_S2x1024x1_S1x1024x1_1_0_0) shapeCasts_S1x1024x1_S1024x1))) := by
    show StableHlo.after hostOps1 (W1 m ρ c) (Proc.devRef .tc main_v12) = _
    after_results
    rfl
  rw [e]
  refine congrArg₂ Ideal.div (congrArg₂ (· + ·) ?_ ?_) ?_
  · exact (shapeCast_1ab_ab_apply _ _ j f).trans (Cert.LibStack.slice3_axis0_apply 0 _ _ (0 : Fin 1) j f (0 : Fin 2) rfl)
  · exact (shapeCast_1ab_ab_apply _ _ j f).trans (Cert.LibStack.slice3_axis0_apply 1 _ _ (0 : Fin 1) j f (1 : Fin 2) rfl)
  · refine (broadcastInDim_apply ![0, 1] bcast_S1024x1_S1024x256_0_1 _ (ix2 j f) (ix2 j (0 : Fin 1)) (fun a => match a with
      | ⟨0, _⟩ => by show j.val = if (1024 : Nat) = 1 then 0 else j.val; rw [if_neg (by decide)]
      | ⟨1, _⟩ => by show 0 = if (1 : Nat) = 1 then 0 else f.val; rw [if_pos rfl])).trans ?_
    refine congrArg₂ (· + ·) ?_ ?_
    · exact (shapeCast_1ab_ab_apply _ _ j (0 : Fin 1)).trans (Cert.LibStack.slice3_axis0_apply 0 _ _ (0 : Fin 1) j (0 : Fin 1) (0 : Fin 2) rfl)
    · exact (shapeCast_1ab_ab_apply _ _ j (0 : Fin 1)).trans (Cert.LibStack.slice3_axis0_apply 1 _ _ (0 : Fin 1) j (0 : Fin 1) (1 : Fin 2) rfl)

end Cert.KernelIdeal.Glue

end
-- ==== Proof.NodePayload.lean ====
/-
  The node pass's stored block read at an index, on the extended reals: entry (r, o) is the sum over the features f of
  ((row r of the incidence block times the edge features' column f) scaled by one over the root of the row's degree)
  times the dense weight (o, f), plus the bias at o.
-/
import proofs.«159337_j13735305413432_2_alg».proof.Proof.Gen.KernelIdeal.Skeleton
import proofs.«159337_j13735305413432_2_alg».proof.Proof.Spec
import proofs.«159337_j13735305413432_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.NodePayload

open Cert.KernelIdeal Cert.KernelIdeal.Gen Idealize.ShloMosaic.ValueIdx

theorem dotH_lhs0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem dotH_lhs1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem dotH_rhs0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem dotH_rhs1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl
/-- The incidence block times the edge features, into a zero accumulator: entry (p, q) sums left (p, k) times right (k, q). -/
theorem dotH_apply (prec : Option ContractPrecision) (l : FVec Ideal S2048x1024 .f32) (r : FVec Ideal S1024x256 .f32)
    (p : Fin 2048) (q : Fin 256) :
    matmul dot_S2048x1024_S1024x256_S2048x256_1_0_0_1_n_n prec l r (constant S2048x256 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact dotH_lhs0 _ _
    | ⟨1, _⟩ => exact (dotH_lhs1 _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (dotH_rhs0 _ _).trans hk
    | ⟨1, _⟩ => exact dotH_rhs1 _ _)
  rw [el, er]

theorem dotW_lhs0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem dotW_lhs1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem dotW_rhs0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem dotW_rhs1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q
/-- The product with the transposed dense weight, into a zero accumulator: entry (p, q) sums left (p, k) times right (q, k). -/
theorem dotW_apply (prec : Option ContractPrecision) (l : FVec Ideal S2048x256 .f32) (r : FVec Ideal S256x256 .f32)
    (p : Fin 2048) (q : Fin 256) :
    matmul dot_S2048x256_S256x256_S2048x256_1_1_0_0_n_n prec l r (constant S2048x256 .f32 0x00000000#32) (ix2 p q)
      = ∑ k : Fin 256, l (ix2 p k) * r (ix2 q k) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 p q) ((contrEquiv1 dot_S2048x256_S256x256_S2048x256_1_1_0_0_n_n 256 rfl rfl).symm k) = ix2 p k := funext fun a => Fin.ext (by
    match a with
    | ⟨0, _⟩ => exact dotW_lhs0 _ _
    | ⟨1, _⟩ => exact (dotW_lhs1 _ _).trans hk)
  have er : dot_S2048x256_S256x256_S2048x256_1_1_0_0_n_n.rhsIdx (ix2 p q) ((contrEquiv1 dot_S2048x256_S256x256_S2048x256_1_1_0_0_n_n 256 rfl rfl).symm k) = ix2 q k := funext fun a => Fin.ext (by
    match a with
    | ⟨0, _⟩ => exact dotW_rhs0 _ _
    | ⟨1, _⟩ => exact (dotW_rhs1 _ _).trans hk)
  rw [el, er]

/-- The node pass's block at (r, o). -/
theorem pay1_apply (v0 : Vec Ideal S2048x1024 .bf16) (v3 : Vec Ideal S1024x256 .f32) (v6 : Vec Ideal S2048x1 .f32)
    (v13 : Vec Ideal S256x256 .f32) (v15 : Vec Ideal S1x256 .f32) (r : Fin 2048) (o : Fin 256) :
    (k1_pay1 (F := Ideal) v0 v3 v6 v13 v15 (ix2 r o) : EReal)
      = (∑ f : Fin 256, ((∑ j : Fin 1024, (v0 (ix2 r j) : EReal) * v3 (ix2 j f))
            * Ideal.div Cert.Hgnn.one (Ideal.sqrt (v6 (ix2 r (0 : Fin 1))))) * v13 (ix2 o f))
          + v15 (ix2 (0 : Fin 1) o) := by
  unfold k1_pay1
  simp only [shapeCast_self]
  refine congrArg₂ (· + ·) ?_ (broadcastTo_1b_ab_apply v15 _ r o)
  refine (dotW_apply _ _ v13 r o).trans (Finset.sum_congr rfl fun f _ => ?_)
  refine congrArg (· * v13 (ix2 o f)) ?_
  refine congrArg₂ (· * ·) ?_ ?_
  · exact dotH_apply _ _ v3 r f
  · exact Cert.LibColumn.broadcastTo_a1_ab_apply _ _ r f

end Cert.KernelIdeal.NodePayload

end
-- ==== Proof.NodeValue.lean ====
/-
  What the node pass leaves in its output array, as a function of the five arrays it finds: at (i, o), the sum over the
  features f of ((row i of the incidence array times column f of the edge features) scaled by one over the root of
  row i's degree) times the dense weight (o, f), plus the bias at o. Each of the four points writes back its 2048 rows.
-/
import proofs.«159337_j13735305413432_2_alg».proof.Proof.Gen.KernelIdeal.Frame
import proofs.«159337_j13735305413432_2_alg».proof.Proof.Spec
import proofs.«159337_j13735305413432_2_alg».proof.Proof.NodePayload
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.NodeValue

open Cert.KernelIdeal Cert.KernelIdeal.Gen Idealize.ShloMosaic.ValueIdx
open Cert.Hgnn (row one outOf)

variable (V : (c : Dev nD) → (b : Ref sig .tc) → Buf (Elt Ideal) ((c : Thread nD τ).loc b))

set_option maxRecDepth 16384

theorem hz2 : (![0, 0] : Fin 2 → Nat) = fun _ => 0 := funext fun a => by fin_cases a <;> rfl
theorem hN : cfg1.N = 4 := N_1
def t4 (t : Fin cfg1.N) : Fin 4 := ⟨t.val, lt_of_lt_of_eq t.isLt hN⟩

/-- The five arrays the pass finds, by coordinates. -/
def Hb (c : Dev nD) : Fin 8192 → Fin 1024 → EReal := fun i j => V c main_v0_1 (ix2 i j)
def Mm (c : Dev nD) : Fin 1024 → Fin 256 → EReal := fun j f => V c main_v12 (ix2 j f)
def Dv (c : Dev nD) : Fin 8192 → EReal := fun i => V c main_v0_0 (ix2 i (0 : Fin 1))
def Ww (c : Dev nD) : Fin 256 → Fin 256 → EReal := fun o f => V c main_arg2 (ix2 o f)
def Bb (c : Dev nD) : Fin 256 → EReal := fun o => V c main_v13 (ix2 (0 : Fin 1) o)

/-- The output array. -/
def G (c : Dev nD) : S8192x256.Idx → EReal := fun i =>
  outOf (Hb V c) (Ww V c) (Bb V c) (Mm V c) (fun a => Ideal.div one (Ideal.sqrt (Dv V c a))) ⟨(i 0).val, (i 0).isLt⟩ ⟨(i 1).val, (i 1).isLt⟩

/-- The body's one store holds the payload of the loaded blocks. -/
theorem out_eq (x0 : Vec Ideal S2048x1024 .bf16) (x1 : Vec Ideal S1024x256 .f32) (x2 : Vec Ideal S2048x1 .f32)
    (x3 : Vec Ideal S256x256 .f32) (x4 : Vec Ideal S1x256 .f32) : out1_5 x0 x1 x2 x3 x4 = k1_pay1 x0 x1 x2 x3 x4 := by
  unfold out1_5
  rw [View.canon_unit_zero hz2]
  simp only [View.ld_unit_zero (S := S2048x1024) hz2, View.ld_unit_zero (S := S1024x256) hz2, View.ld_unit_zero (S := S2048x1) hz2,
    View.ld_unit_zero (S := S256x256) hz2, View.ld_unit_zero (S := S1x256) hz2]

/-- The windows' block indices over the grid: the row-blocked windows sit at the point's number, the others at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blk0 (c : Dev nD) (t : Fin cfg1.N) (r : Fin 2048) (j : Fin 1024) :
    (iblk1 V c 0 t : S2048x1024.Idx → EReal) (ix2 r j) = Hb V c (row (t4 t) r) j := by
  unfold iblk1 Hb
  rw [View.read_apply]
  show V c main_v0_1 (((cfg1.win 0).blk t).view.emb (ix2 r j)) = _
  refine congrArg (V c main_v0_1) (funext fun a => Fin.ext ?_)
  obtain ⟨e0, e1, -⟩ := idx_facts t
  match a with
  | ⟨0, _⟩ => show win1_0.index t (0 : Fin 2) * 2048 + 1 * r.val = 2048 * t.val + r.val; rw [e0]; omega
  | ⟨1, _⟩ => show win1_0.index t (1 : Fin 2) * 1024 + 1 * j.val = j.val; rw [e1]; omega

theorem blk1 (c : Dev nD) (t : Fin cfg1.N) (j : Fin 1024) (f : Fin 256) :
    (iblk1 V c 1 t : S1024x256.Idx → EReal) (ix2 j f) = Mm V c j f := by
  unfold iblk1 Mm
  rw [View.read_apply]
  show V c main_v12 (((cfg1.win 1).blk t).view.emb (ix2 j f)) = _
  refine congrArg (V c main_v12) (funext fun a => Fin.ext ?_)
  obtain ⟨-, -, e0, e1, -⟩ := idx_facts t
  match a with
  | ⟨0, _⟩ => show win1_1.index t (0 : Fin 2) * 1024 + 1 * j.val = j.val; rw [e0]; omega
  | ⟨1, _⟩ => show win1_1.index t (1 : Fin 2) * 256 + 1 * f.val = f.val; rw [e1]; omega

theorem blk2 (c : Dev nD) (t : Fin cfg1.N) (r : Fin 2048) :
    (iblk1 V c 2 t : S2048x1.Idx → EReal) (ix2 r (0 : Fin 1)) = Dv V c (row (t4 t) r) := by
  unfold iblk1 Dv
  rw [View.read_apply]
  show V c main_v0_0 (((cfg1.win 2).blk t).view.emb (ix2 r (0 : Fin 1))) = _
  refine congrArg (V c main_v0_0) (funext fun a => Fin.ext ?_)
  obtain ⟨-, -, -, -, e0, e1, -⟩ := idx_facts t
  match a with
  | ⟨0, _⟩ => show win1_2.index t (0 : Fin 2) * 2048 + 1 * r.val = 2048 * t.val + r.val; rw [e0]; omega
  | ⟨1, _⟩ => show win1_2.index t (1 : Fin 2) * 1 + 1 * 0 = 0; rw [e1]

theorem blk3 (c : Dev nD) (t : Fin cfg1.N) (o : Fin 256) (f : Fin 256) :
    (iblk1 V c 3 t : S256x256.Idx → EReal) (ix2 o f) = Ww V c o f := by
  unfold iblk1 Ww
  rw [View.read_apply]
  show V c main_arg2 (((cfg1.win 3).blk t).view.emb (ix2 o f)) = _
  refine congrArg (V c main_arg2) (funext fun a => Fin.ext ?_)
  obtain ⟨-, -, -, -, -, -, e0, e1, -⟩ := idx_facts t
  match a with
  | ⟨0, _⟩ => show win1_3.index t (0 : Fin 2) * 256 + 1 * o.val = o.val; rw [e0]; omega
  | ⟨1, _⟩ => show win1_3.index t (1 : Fin 2) * 256 + 1 * f.val = f.val; rw [e1]; omega

theorem blk4 (c : Dev nD) (t : Fin cfg1.N) (o : Fin 256) :
    (iblk1 V c 4 t : S1x256.Idx → EReal) (ix2 (0 : Fin 1) o) = Bb V c o := by
  unfold iblk1 Bb
  rw [View.read_apply]
  show V c main_v13 (((cfg1.win 4).blk t).view.emb (ix2 (0 : Fin 1) o)) = _
  refine congrArg (V c main_v13) (funext fun a => Fin.ext ?_)
  obtain ⟨-, -, -, -, -, -, -, -, e0, e1, -⟩ := idx_facts t
  match a with
  | ⟨0, _⟩ => show win1_4.index t (0 : Fin 2) * 1 + 1 * 0 = 0; rw [e0]
  | ⟨1, _⟩ => show win1_4.index t (1 : Fin 2) * 256 + 1 * o.val = o.val; rw [e1]; omega

/-- What point t writes back is block t of the output array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5, out_eq]
  funext y
  obtain ⟨r, o, rfl⟩ : ∃ (r : Fin 2048) (o : Fin 256), y = ix2 r o := ⟨y 0, y 1, eq_ix2 y⟩
  rw [View.read_apply]
  refine (NodePayload.pay1_apply (iblk1 V c 0 t) (iblk1 V c 1 t) (iblk1 V c 2 t) (iblk1 V c 3 t) (iblk1 V c 4 t) r o).trans ?_
  obtain ⟨-, -, -, -, -, -, -, -, -, -, e0, e1⟩ := idx_facts t
  have q0 : row (t4 t) r = (⟨((((cfg1.win 5).blk t).view.emb (ix2 r o)) 0).val, ((((cfg1.win 5).blk t).view.emb (ix2 r o)) 0).isLt⟩ : Fin 8192) :=
    Fin.ext (by show 2048 * t.val + r.val = win1_5.index t (0 : Fin 2) * 2048 + 1 * r.val; rw [e0]; omega)
  have q1 : o = (⟨((((cfg1.win 5).blk t).view.emb (ix2 r o)) 1).val, ((((cfg1.win 5).blk t).view.emb (ix2 r o)) 1).isLt⟩ : Fin 256) :=
    Fin.ext (by show o.val = win1_5.index t (1 : Fin 2) * 256 + 1 * o.val; rw [e1]; omega)
  unfold G
  rw [← q0, ← q1]
  unfold outOf
  simp only [blk0 V c t, blk1 V c t, blk2 V c t, blk3 V c t, blk4 V c t]
  rfl

/-- An index of the output array lies in point t's block iff each coordinate lies in the block's range on its axis. -/
theorem mem_blk (t : Fin cfg1.N) (i : S8192x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole main_v14).slice (win1_5.rect t)).set ↔ _
  rw [View.set_slice_whole, Rect.mem_set_unit]
  exact Iff.rfl

theorem cover (i : S8192x256.Idx) : ∃ t : Fin cfg1.N, (cfg1.win 5).flush t = true ∧ i ∈ ((cfg1.win 5).blk t).view.set := by
  have h0 : (i 0).val < 8192 := (i 0).isLt
  have h1 : (i 1).val < 256 := (i 1).isLt
  refine ⟨⟨(i 0).val / 2048, lt_of_lt_of_eq (by omega) hN.symm⟩, flush1_5 _, ?_⟩
  rw [mem_blk]
  obtain ⟨-, -, -, -, -, -, -, -, -, -, e0, e1⟩ := idx_facts ⟨(i 0).val / 2048, lt_of_lt_of_eq (by omega) hN.symm⟩
  intro a
  match a with
  | ⟨0, _⟩ => show win1_5.index _ (0 : Fin 2) * 2048 ≤ (i 0).val ∧ (i 0).val < win1_5.index _ (0 : Fin 2) * 2048 + 2048; rw [e0]; show (i 0).val / 2048 * 2048 ≤ _ ∧ _ < (i 0).val / 2048 * 2048 + 2048; omega
  | ⟨1, _⟩ => show win1_5.index _ (1 : Fin 2) * 256 ≤ (i 1).val ∧ (i 1).val < win1_5.index _ (1 : Fin 2) * 256 + 256; rw [e1]; omega

/-- The output array after the pass. -/
theorem final (c : Dev nD) : (dat1 V c).arrAt 5 cfg1.N = G V c :=
  (dat1 V c).arrAt_eq_of_cover 5 (G V c) (fun t _ => flushed_eq V c t) cover

end Cert.KernelIdeal.NodeValue

end
-- ==== Proof.KernelRun.lean ====
/-
  The idealized kernel's whole run, with the result buffer kept in view: every weakly fair execution ends, nothing
  faulting, with the result buffer at the contents the second pass leaves in it and the four arguments as launched.
-/
import proofs.«159337_j13735305413432_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HgnnRun

open Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 16384

/-- The second pass's output window is the result buffer. -/
theorem arrRef_out : Pipeline.arrRef spec1 5 = main_v14 := rfl

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The last boundary's contents at the result buffer: what the second pass's write-backs leave in its array. -/
theorem W3_out (c : Dev nD) : W3 m ρ c (Proc.devRef .tc main_v14) = (dat1 (V2 m ρ) c).arrAt 5 cfg1.N :=
  W3_arr m ρ c 5

end Cert.KernelIdeal.HgnnRun

end
-- ==== Proof.KernelValue.lean ====
/-
  The idealized kernel's result as a function of its four arguments: the edge pass's arrays, through the host's
  combination of the two halves, into the node pass, are the layer's second reading of H, X, W and b.
-/
import proofs.«159337_j13735305413432_2_alg».proof.Proof.EdgeArrays
import proofs.«159337_j13735305413432_2_alg».proof.Proof.Glue
import proofs.«159337_j13735305413432_2_alg».proof.Proof.NodeValue
import proofs.«159337_j13735305413432_2_alg».proof.Proof.KernelRun

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx
open Cert.Hgnn (one outOf kDv kScale kMp kDp kM kOut)

variable (m : (ℓ : Loc nD τ sig) → Buf (Elt Ideal) ℓ) (ρ : Dev nD → PrngReg)

/-- The four argument arrays by coordinates. -/
def Hm (c : Dev nD) : Fin 8192 → Fin 1024 → EReal := fun i j => m ((c : Thread nD τ).loc main_arg1) (ix2 i j)
def Xm (c : Dev nD) : Fin 8192 → Fin 256 → EReal := fun i f => m ((c : Thread nD τ).loc main_arg0) (ix2 i f)
def Wm (c : Dev nD) : Fin 256 → Fin 256 → EReal := fun o f => m ((c : Thread nD τ).loc main_arg2) (ix2 o f)
def Bm (c : Dev nD) : Fin 256 → EReal := fun o => m ((c : Thread nD τ).loc main_arg3) (ix1 o)

/-- The kernel's result array. -/
def result (c : Dev nD) : S8192x256.Idx → EReal := fun i =>
  kOut (Hm m c) (Xm m c) (Wm m c) (Bm m c) ⟨(i 0).val, (i 0).isLt⟩ ⟨(i 1).val, (i 1).isLt⟩

/-- The edge pass reads the launch contents of H and X. -/
theorem hc_eq (c : Dev nD) : EdgeValue.Hc (V0 m ρ) c = Hm m c := rfl
theorem xc_eq (c : Dev nD) : EdgeValue.Xc (V0 m ρ) c = Xm m c := rfl

/-- After the edge pass its four output buffers hold its four closed forms. -/
theorem in_dv (c : Dev nD) : Glue.dvIn m ρ c = EdgeArrays.G2 (V0 m ρ) c := (W1_arr m ρ c 2).trans (EdgeArrays.final2 (V0 m ρ) c)
theorem in_hb (c : Dev nD) : Glue.hbIn m ρ c = EdgeArrays.G3 (V0 m ρ) c := (W1_arr m ρ c 3).trans (EdgeArrays.final3 (V0 m ρ) c)
theorem in_mp (c : Dev nD) : Glue.mpIn m ρ c = EdgeArrays.G4 (V0 m ρ) c := (W1_arr m ρ c 4).trans (EdgeArrays.final4 (V0 m ρ) c)
theorem in_dp (c : Dev nD) : Glue.dpIn m ρ c = EdgeArrays.G5 (V0 m ρ) c := (W1_arr m ρ c 5).trans (EdgeArrays.final5 (V0 m ρ) c)

/-- What the node pass finds, in terms of the arguments. -/
theorem hb_eq (c : Dev nD) : NodeValue.Hb (V2 m ρ) c = Hm m c := by
  funext i j
  show Glue.hbOut m ρ c (ix2 i j) = _
  rw [Glue.glue_hb, in_hb]
  rfl

theorem scale_eq (c : Dev nD) : (fun a => Ideal.div one (Ideal.sqrt (NodeValue.Dv (V2 m ρ) c a))) = kScale (Hm m c) := by
  funext a
  show Ideal.div one (Ideal.sqrt (Glue.dvOut m ρ c (ix2 a (0 : Fin 1)))) = _
  rw [Glue.glue_dv, in_dv]
  rfl

theorem m_eq (c : Dev nD) : NodeValue.Mm (V2 m ρ) c = kM (Hm m c) (Xm m c) := by
  funext j f
  show Glue.mOut m ρ c (ix2 j f) = _
  rw [Glue.glue_m, in_mp, in_dp]
  rfl

theorem w_eq (c : Dev nD) : NodeValue.Ww (V2 m ρ) c = Wm m c := by
  funext o f
  show Glue.wOut m ρ c (ix2 o f) = _
  rw [Glue.glue_w]
  exact congrFun (W1_of_ne m ρ c main_arg2 (by decide)) (ix2 o f)

theorem b_eq (c : Dev nD) : NodeValue.Bb (V2 m ρ) c = Bm m c := by
  funext o
  show Glue.bOut m ρ c (ix2 (0 : Fin 1) o) = _
  rw [Glue.glue_b]
  exact congrFun (W1_of_ne m ρ c main_arg3 (by decide)) (ix1 o)

/-- The last boundary's contents at the result buffer are the layer's second reading of the arguments. -/
theorem value (c : Dev nD) : @Eq (S8192x256.Idx → EReal) (W3 m ρ c (Proc.devRef .tc main_v14)) (result m c) := by
  have e : @Eq (S8192x256.Idx → EReal) (W3 m ρ c (Proc.devRef .tc main_v14)) (NodeValue.G (V2 m ρ) c) :=
    (HgnnRun.W3_out m ρ c).trans (NodeValue.final (V2 m ρ) c)
  rw [e]
  unfold NodeValue.G result kOut
  rw [hb_eq, w_eq, b_eq, m_eq, scale_eq]

end Cert.KernelIdeal.KernelValue

end
-- ==== Proof.RefValue.lean ====
/-
  The reference read at coordinates, stage by stage, on the extended reals: the node scale one over the root of the
  row sum; the reciprocal of the column sum; Hᵀ applied to the scaled features; its rows scaled by the reciprocal; H
  applied to that, rows scaled again; the dense layer. Its result at (i, o) is the layer's first reading.
-/
import proofs.«159337_j13735305413432_2_alg».proof.Proof.Gen.ReferenceIdeal.Read
import proofs.«159337_j13735305413432_2_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Read Idealize.ShloMosaic.ValueIdx
open Cert.Hgnn (one zero rDv rScale rDe rM rOut outOf)

variable (x0 : (⟨S8192x256, .f32⟩ : BufTy).Contents (Elt Ideal)) (x1 : (⟨S8192x1024, .f32⟩ : BufTy).Contents (Elt Ideal)) (x2 : (⟨S256x256, .f32⟩ : BufTy).Contents (Elt Ideal)) (x3 : (⟨S256, .f32⟩ : BufTy).Contents (Elt Ideal))

/-- The four arrays by coordinates. -/
abbrev Hof : Fin 8192 → Fin 1024 → EReal := fun a b => x1 (ix2 a b)
abbrev Xof : Fin 8192 → Fin 256 → EReal := fun a f => x0 (ix2 a f)
abbrev Wof : Fin 256 → Fin 256 → EReal := fun o f => x2 (ix2 o f)
abbrev bof : Fin 256 → EReal := fun o => x3 (ix1 o)

/-- The node scale at row i. -/
theorem scale_at (i : Fin 8192) : val_main_v4 (F := Ideal) x1 (ix1 i) = rScale (Hof x1) i := by
  rw [val_main_v4_apply, val_main_v3_apply, val_main_v2_apply, val_main_v0_apply]
  have e : ∀ k, idx_main_v0 (ix1 i) k = ix2 i k := fun k => (funext fun a => match a with | ⟨0, _⟩ => rfl | ⟨1, _⟩ => rfl : idx_main_v0 (ix1 i) k = ix2 i k)
  simp only [e]
  rfl

/-- The reciprocal of column j's sum. -/
theorem recip_at (j : Fin 1024) : val_main_v6 (F := Ideal) x1 (ix1 j) = Ideal.div one (rDe (Hof x1) j) := by
  rw [val_main_v6_apply, val_main_v5_apply, val_main_v1_apply]
  have e : ∀ k, idx_main_v1 (ix1 j) k = ix2 k j := fun k => (funext fun a => match a with | ⟨0, _⟩ => rfl | ⟨1, _⟩ => rfl : idx_main_v1 (ix1 j) k = ix2 k j)
  simp only [e]
  rfl

/-- Hᵀ applied to the scaled features, at (j, f). -/
theorem edge_at (j : Fin 1024) (f : Fin 256) :
    val_main_v11 (F := Ideal) x0 x1 (ix2 j f) = ∑ i : Fin 8192, Hof x1 i j * (Xof x0 i f * rScale (Hof x1) i) := by
  rw [val_main_v11_apply]
  refine Finset.sum_congr rfl fun k _ => ?_
  rw [(funext fun a => match a with | ⟨0, _⟩ => rfl | ⟨1, _⟩ => rfl : lidx_main_v11 (ix2 j f) k = ix2 j k), (funext fun a => match a with | ⟨0, _⟩ => rfl | ⟨1, _⟩ => rfl : ridx_main_v11 (ix2 j f) k = ix2 k f),
    val_main_v10_apply, val_main_v9_apply, val_main_v8_apply, val_main_v7_apply,
    (funext fun a => match a with | ⟨0, _⟩ => rfl | ⟨1, _⟩ => rfl : idx_main_v10 (ix2 j k) = ix2 k j), (funext fun a => match a with | ⟨0, _⟩ => rfl | ⟨1, _⟩ => rfl : idx_main_v8 (ix2 k f) = ix2 k (0 : Fin 1)),
    (funext fun a => match a with | ⟨0, _⟩ => rfl : idx_main_v7 (ix2 k (0 : Fin 1)) = ix1 k), scale_at]
  rfl

/-- The scaled edge features at (j, f). -/
theorem edgeScaled_at (j : Fin 1024) (f : Fin 256) :
    val_main_v14 (F := Ideal) x0 x1 (ix2 j f) = rM (Hof x1) (Xof x0) j f := by
  rw [val_main_v14_apply, edge_at, val_main_v13_apply, val_main_v12_apply,
    (funext fun a => match a with | ⟨0, _⟩ => rfl | ⟨1, _⟩ => rfl : idx_main_v13 (ix2 j f) = ix2 j (0 : Fin 1)), (funext fun a => match a with | ⟨0, _⟩ => rfl : idx_main_v12 (ix2 j (0 : Fin 1)) = ix1 j), recip_at]
  rfl

/-- H applied to the scaled edge features, rows scaled, at (i, f). -/
theorem node_at (i : Fin 8192) (f : Fin 256) :
    val_main_v18 (F := Ideal) x0 x1 (ix2 i f)
      = (∑ j : Fin 1024, Hof x1 i j * rM (Hof x1) (Xof x0) j f) * rScale (Hof x1) i := by
  rw [val_main_v18_apply, val_main_v15_apply, val_main_v17_apply, val_main_v16_apply,
    (funext fun a => match a with | ⟨0, _⟩ => rfl | ⟨1, _⟩ => rfl : idx_main_v17 (ix2 i f) = ix2 i (0 : Fin 1)), (funext fun a => match a with | ⟨0, _⟩ => rfl : idx_main_v16 (ix2 i (0 : Fin 1)) = ix1 i), scale_at]
  refine congrArg (· * rScale (Hof x1) i) (Finset.sum_congr rfl fun k _ => ?_)
  rw [(funext fun a => match a with | ⟨0, _⟩ => rfl | ⟨1, _⟩ => rfl : lidx_main_v15 (ix2 i f) k = ix2 i k), (funext fun a => match a with | ⟨0, _⟩ => rfl | ⟨1, _⟩ => rfl : ridx_main_v15 (ix2 i f) k = ix2 k f), edgeScaled_at]

/-- The reference's result at (i, o) is the layer's first reading. -/
theorem result_at (i : Fin 8192) (o : Fin 256) :
    val_main_v23 (F := Ideal) x0 x1 x2 x3 (ix2 i o) = rOut (Hof x1) (Xof x0) (Wof x2) (bof x3) i o := by
  rw [val_main_v23_apply, val_main_v20_apply, val_main_v22_apply, val_main_v21_apply,
    (funext fun a => match a with | ⟨0, _⟩ => rfl | ⟨1, _⟩ => rfl : idx_main_v22 (ix2 i o) = ix2 (0 : Fin 1) o), (funext fun a => match a with | ⟨0, _⟩ => rfl : idx_main_v21 (ix2 (0 : Fin 1) o) = ix1 o)]
  refine congrArg (· + x3 (ix1 o)) (Finset.sum_congr rfl fun k _ => ?_)
  rw [(funext fun a => match a with | ⟨0, _⟩ => rfl | ⟨1, _⟩ => rfl : lidx_main_v20 (ix2 i o) k = ix2 i k), (funext fun a => match a with | ⟨0, _⟩ => rfl | ⟨1, _⟩ => rfl : ridx_main_v20 (ix2 i o) k = ix2 k o), node_at, val_main_v19_apply,
    (funext fun a => match a with | ⟨0, _⟩ => rfl | ⟨1, _⟩ => rfl : idx_main_v19 (ix2 k o) = ix2 o k)]

end Cert.ReferenceIdeal.RefValue

end
-- ==== Proof.PreDecode.lean ====
/-
  What the precondition gives beyond finiteness: no column of the incidence array sums to zero, so the reciprocal of an
  edge degree is never taken at zero.
-/
import proofs.«159337_j13735305413432_2_alg».proof.Proof.Gen.Pre_finite_inputs
import proofs.«159337_j13735305413432_2_alg».proof.Proof.Spec
import Idealize.ShloMosaic.Lib.ReduceAll
import Idealize.ShloMosaic.Lib.Affine
import Idealize.ShloMosaic.Lib.ValueIdx
import Idealize.ShloMosaic.PureOps.Ideal.Laws

noncomputable section

open Idealize.ShloMosaic Idealize.ShloMosaic.ValueIdx

namespace Cert.Pre_finite_inputs.Decode

open Cert.Pre_finite_inputs

variable [Facts]
open Facts

/-- The scalar shape has one index. -/
instance : Subsingleton S_.Idx := ⟨fun a b => funext fun d => d.elim0⟩

/-- An unordered-or-unequal comparison that answers one, on the extended reals, says the two differ. -/
theorem ne_of_une {x y : EReal} (h : Ideal.cmp .une x y = 1#1) : x ≠ y := by
  unfold Ideal.cmp at h
  intro hxy
  simp [hxy] at h

/-- The host's sum down column j, from the zero word, is the column's sum from zero. -/
theorem colsum_eq (a1 : FVec Ideal S8192x1024 .f32) (j : Fin 1024) :
    Host.reduceAdd a1 (constant S_ .f32 0x00000000#32) reducesTo_S8192x1024_S1024_d0 h_S_ (ix1 j)
      = Cert.Hgnn.rDe (fun i k => a1 (ix2 i k)) j := by
  simp only [Host.reduceAdd, Ideal.hostReduceAdd_def]
  rw [Ideal.hostReduceAdd_single reducesTo_S8192x1024_S1024_d0 (by decide)]
  unfold Cert.Hgnn.rDe
  refine congrArg₂ (· + ·) rfl (Finset.sum_congr rfl fun k _ => ?_)
  exact congrArg a1 (funext fun a => Fin.ext (by match a with | ⟨0, _⟩ => rfl | ⟨1, _⟩ => rfl))

/-- Under the precondition no column sum of the incidence array is zero. -/
theorem colsum_ne_zero (a0 : FVec Ideal S8192x256 .f32) (a1 : FVec Ideal S8192x1024 .f32) (a2 : FVec Ideal S256x256 .f32)
    (a3 : FVec Ideal S256 .f32) (h : fn (F := Ideal) a0 a1 a2 a3 = fun _ => 1#1) (j : Fin 1024) :
    Cert.Hgnn.rDe (fun i k => a1 (ix2 i k)) j ≠ 0 := by
  have h0 := congrFun h ix0
  dsimp only [fn, fn_part1] at h0
  have h1 := (IntOp.andi_eq_one.mp h0).2
  have h2 := Host.reduce_andi_all _ _ _ _ _ h1 (ix1 j)
  have h3 : Ideal.cmp .une (Host.reduceAdd a1 (constant S_ .f32 0x00000000#32) reducesTo_S8192x1024_S1024_d0 h_S_ (ix1 j))
      (Ideal.ofBits .f32 0x00000000#32) = 1#1 := h2
  have h4 := ne_of_une h3
  rwa [Ideal.ofBits_zero_f32, colsum_eq] at h4

end Cert.Pre_finite_inputs.Decode

end
-- ==== Proof.lean ====
/-
  A hypergraph layer: with H the incidence array, dv and de its row and column sums, the output is
  Dv^(-1/2) H De^(-1) Hᵀ Dv^(-1/2) X followed by a dense layer. The kernel computes it in two passes — an edge pass
  that, per half of the rows and per block of 2048 rows, accumulates Hᵀ · (X scaled by one over the root of the row
  sum) and the column sums, and a node pass that applies H, rescales and applies the dense layer — with the two
  halves added, and the features divided by the edge degrees, on the host in between. The reference multiplies by
  the reciprocal of the edge degree where the kernel divides; on the extended reals the two differ only at a zero edge
  degree, which the precondition excludes. Everything else is a regrouping of sums.
-/
import proofs.«159337_j13735305413432_2_alg».proof.Defs
import proofs.«159337_j13735305413432_2_alg».proof.Proof.Gen.Kernel
import proofs.«159337_j13735305413432_2_alg».proof.Proof.Gen.Kernel.Skeleton
import proofs.«159337_j13735305413432_2_alg».proof.Proof.Gen.Kernel.Launch
import proofs.«159337_j13735305413432_2_alg».proof.Proof.Gen.Kernel.Points
import proofs.«159337_j13735305413432_2_alg».proof.Proof.Gen.Kernel.Frame
import proofs.«159337_j13735305413432_2_alg».proof.Proof.Gen.KernelIdeal
import proofs.«159337_j13735305413432_2_alg».proof.Proof.Gen.KernelIdeal.Skeleton
import proofs.«159337_j13735305413432_2_alg».proof.Proof.Gen.KernelIdeal.Launch
import proofs.«159337_j13735305413432_2_alg».proof.Proof.Gen.KernelIdeal.Points
import proofs.«159337_j13735305413432_2_alg».proof.Proof.Gen.KernelIdeal.Frame
import proofs.«159337_j13735305413432_2_alg».proof.Proof.Gen.ReferenceIdeal
import proofs.«159337_j13735305413432_2_alg».proof.Proof.Gen.Pre_finite_inputs
import proofs.«159337_j13735305413432_2_alg».proof.Proof.Gen.ReferenceIdeal.Run
import proofs.«159337_j13735305413432_2_alg».proof.Proof.Gen.ReferenceIdeal.Read
import proofs.«159337_j13735305413432_2_alg».proof.Proof.KernelValue
import proofs.«159337_j13735305413432_2_alg».proof.Proof.RefValue
import proofs.«159337_j13735305413432_2_alg».proof.Proof.PreDecode
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On arguments that agree, with no edge degree zero, the kernel's result array and the reference's are the same
    function of the arguments, entry by entry: the layer's two readings. -/
theorem algebraic : Cert.algebraic_KernelIdeal_ReferenceIdeal := by
  intro m ρ m' ρ' hpre hagree
  refine ⟨fun c => Cert.KernelIdeal.KernelValue.result m c, ?_, ?_⟩
  · exact (θ_run Cert.KernelIdeal.defs _ _).mono
      (fun _ h c => ⟨(h c).1.trans (Cert.KernelIdeal.KernelValue.value m ρ c), (h c).2⟩)
      (Cert.KernelIdeal.HgnnRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2]
    funext i
    obtain ⟨a, o, rfl⟩ : ∃ (a : Fin 8192) (o : Fin 256), i = ix2 a o := ⟨i 0, i 1, eq_ix2 i⟩
    rw [Cert.ReferenceIdeal.RefValue.result_at]
    have hde : ∀ j, Cert.Hgnn.rDe (Cert.KernelIdeal.KernelValue.Hm m c) j ≠ 0 := fun j =>
      Cert.Pre_finite_inputs.Decode.colsum_ne_zero _ _ _ _ (hpre c) j
    exact (congrFun (congrFun (Cert.Hgnn.kOut_eq_rOut (Cert.KernelIdeal.KernelValue.Hm m c)
      (Cert.KernelIdeal.KernelValue.Xm m c) (Cert.KernelIdeal.KernelValue.Wm m c) (Cert.KernelIdeal.KernelValue.Bm m c) hde) a) o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
